-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v38 : IVec S_ 1) (main_v50 : IVec S_ 1) : IVec S_ 1 :=
  let main_v51 : IVec S_ 1 := andi main_v38 main_v50
  main_v51

def fn_part2 {F : FTy → Type} [FloatOps F] (main_arg1 : FVec F S8192x8192 .f32) (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_cst_14 : FVec F S_ .f32 := constant S_ .f32 0x3727C5AC#32
  let main_v39 : FVec F S8192x8192 .f32 := broadcastInDim S8192x8192 ![] bcast_S_S8192x8192 main_cst_14
  let main_v40 : FVec F S8192x8192 .f32 := mulf main_arg1 main_v39
  let main_v41 : FVec F S8192x8192 .f32 := Host.ceil main_v40
  let main_cst_15 : FVec F S_ .f32 := constant S_ .f32 0x00000000#32
  let main_v42 : FVec F S8192x8192 .f32 := broadcastInDim S8192x8192 ![] bcast_S_S8192x8192 main_cst_15
  let main_v43 : IVec S8192x8192 1 := cmpf .oeq main_v41 main_v42
  let main_cst_16 : FVec F S_ .f32 := constant S_ .f32 0x3727C5AC#32
  let main_v44 : FVec F S8192x8192 .f32 := broadcastInDim S8192x8192 ![] bcast_S_S8192x8192 main_cst_16
  let main_v45 : FVec F S8192x8192 .f32 := mulf main_arg1 main_v44
  let main_v46 : FVec F S8192x8192 .f32 := Host.ceil main_v45
  let main_cst_17 : FVec F S_ .f32 := constant S_ .f32 0x3F800000#32
  let main_v47 : FVec F S8192x8192 .f32 := broadcastInDim S8192x8192 ![] bcast_S_S8192x8192 main_cst_17
  let main_v48 : IVec S8192x8192 1 := cmpf .oeq main_v46 main_v47
  let main_v49 : IVec S8192x8192 1 := ori main_v43 main_v48
  let main_c_18 : IVec S_ 1 := constantI S_ 1 1#1
  let main_v50 : IVec S_ 1 := (fun x v => Host.reduce IntOp.andi x v reducesTo_S8192x8192_S_d0_1 h_S_) main_v49 main_c_18
  fn_part3 (F := F) main_v38 main_v50

def fn_part1 {F : FTy → Type} [FloatOps F] (main_arg1 : FVec F S8192x8192 .f32) (main_arg4 : FVec F S128x256 .f32) (main_arg5 : FVec F S256 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg7 main_v33

def fn {F : FTy → Type} [FloatOps F] (main_arg0 : FVec F S8192x128 .f32) (main_arg1 : FVec F S8192x8192 .f32) (main_arg2 : FVec F S128 .f32) (main_arg3 : FVec F S128 .f32) (main_arg4 : FVec F S128x256 .f32) (main_arg5 : FVec F S256 .f32) (main_arg6 : FVec F S128x128 .f32) (main_arg7 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_arg6 main_arg7 main_v13 main_v16
-- ==== Kernel.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x128 : Shape := ⟨2, ![128, 128]⟩
abbrev S_ : Shape := ⟨0, ![]⟩
abbrev S1x128 : Shape := ⟨2, ![1, 128]⟩
abbrev S8192x256 : Shape := ⟨2, ![8192, 256]⟩
abbrev S1x256 : Shape := ⟨2, ![1, 256]⟩
abbrev S8192x1 : Shape := ⟨2, ![8192, 1]⟩
abbrev S512x2048 : Shape := ⟨2, ![512, 2048]⟩
abbrev S512x1 : Shape := ⟨2, ![512, 1]⟩
abbrev S512x256 : Shape := ⟨2, ![512, 256]⟩
abbrev S2048x256 : Shape := ⟨2, ![2048, 256]⟩
abbrev S256x2048 : Shape := ⟨2, ![256, 2048]⟩
abbrev S512 : Shape := ⟨1, ![512]⟩
abbrev S512x128 : Shape := ⟨2, ![512, 128]⟩
abbrev S2048x128 : Shape := ⟨2, ![2048, 128]⟩

abbrev nBuf : Space → Nat
  | .hbm => 68
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S8192x128, .f32⟩
  | .hbm, ⟨45, _⟩ => ⟨S8192x128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S8192x256, .bf16⟩
  | .hbm, ⟨61, _⟩ => ⟨S8192x8192, .f32⟩
  | .hbm, ⟨62, _⟩ => ⟨S8192x1, .f32⟩
  | .hbm, ⟨63, _⟩ => ⟨S8192x1, .f32⟩
  | .hbm, ⟨64, _⟩ => ⟨S8192x128, .f32⟩
  | .hbm, ⟨65, _⟩ => ⟨S8192x128, .f32⟩
  | .hbm, ⟨66, _⟩ => ⟨S8192x128, .bf16⟩
  | .hbm, ⟨67, _⟩ => ⟨S8192x128, .f32⟩
  | .local _ .vmem, ⟨0, _⟩ => ⟨S8192x256, .bf16⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x1, .f32⟩
  | .local _ .vmem, ⟨6, _⟩ => ⟨S512x1, .f32⟩
  | .local _ .vmem, ⟨7, _⟩ => ⟨S512x2048, .f32⟩
  | .local _ .vmem, ⟨8, _⟩ => ⟨S512x2048, .f32⟩
  | .local _ .vmem, ⟨9, _⟩ => ⟨S8192x128, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | .local _ .vmem, ⟨13, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28_0 : Ref sig .tc := ⟨.hbm, 61, rfl⟩
abbrev main_v28_1 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_mult2 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v10 : Index := Scalar.indexCast v6
  let c0_1 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  h_S512x256 : 0 < S512x256.numel
  shapeCasts_S512x256_S512x256 : S512x256.ShapeCasts S512x256
  h_S2048x256 : 0 < S2048x256.numel
  shapeCasts_S2048x256_S2048x256 : S2048x256.ShapeCasts S2048x256
  transposes_S2048x256_p1_0_S256x2048 : S2048x256.Transposes [1, 0] S256x2048
  inb_S512x2048_S512x2048_0_0 : ∀ a, (![0, 0] : Fin 2 → Nat) a + S512x2048.size a ≤ S512x2048.size a
  h_S512x2048 : 0 < S512x2048.numel
  iota_S512x2048_d0_w32 : S512x2048.Iotas .tc 32 [0]
  iota_S512x2048_d1_w32 : S512x2048.Iotas .tc 32 [1]
  shapeCasts_S512x1_S512x1 : S512x1.ShapeCasts S512x1
  reduces_S512x2048_S512 : S512x2048.Reduces [1] S512
  shapeCasts_S512_S512x1 : S512.ShapeCasts S512x1
  bcast_S8192x1_S8192x128_0_1 : S8192x1.BroadcastsInDim S8192x128 (![0, 1] : Fin 2 → Fin S8192x128.rank)
  inb_S512x128_S512x128_0_0 : ∀ a, (![0, 0] : Fin 2 → Nat) a + S512x128.size a ≤ S512x128.size a
  h_S512x128 : 0 < S512x128.numel
  h_S2048x128 : 0 < S2048x128.numel
  shapeCasts_S2048x128_S2048x128 : S2048x128.ShapeCasts S2048x128
  shapeCasts_S512x2048_S512x2048 : S512x2048.ShapeCasts S512x2048
  shapeCasts_S512x128_S512x128 : S512x128.ShapeCasts S512x128
  broadcasts_S512x1_S512x128 : S512x1.Broadcasts S512x128
  dot_S8192x128_S128x256_S8192x256_1_0_0_1_n_n_wf : DotDims.WF S8192x128 S128x256 S8192x256 [1] [0] [0] [1] [] []
  dot_S8192x128_S128x128_S8192x128_1_0_0_1_n_n_wf : DotDims.WF S8192x128 S128x128 S8192x128 [1] [0] [0] [1] [] []
  dot_S512x256_S256x2048_S512x2048_1_0_0_1_n_n_wf : DotDims.WF S512x256 S256x2048 S512x2048 [1] [0] [0] [1] [] []
  dot_S512x2048_S2048x128_S512x128_1_0_0_1_n_n_wf : DotDims.WF S512x2048 S2048x128 S512x128 [1] [0] [0] [1] [] []
  hrank0 : 0 < grid0.rank
  k0_mult1_dvd : ∀ i : grid0.Coords, 512 ∣ (k0_mult1 i).toNat
  k0_mult2_dvd : ∀ i : grid0.Coords, 2048 ∣ (k0_mult2 i).toNat
  k0_off1_inb : ∀ i : grid0.Coords, ∀ a, (k0_off1 i) a + S512x256.size a ≤ S8192x256.size a
  k0_off2_inb : ∀ i : grid0.Coords, ∀ a, (k0_off2 i) a + S2048x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .f32 = 32 ∨ (Rect.block (s := S8192x8192) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .f32 = 32 ∨ (Rect.block (s := S8192x128) S512x128.size (cc1_transform_3 i) (hinb1_3 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v27) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28_0) S512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x128 : Shape := ⟨2, ![128, 128]⟩
abbrev S_ : Shape := ⟨0, ![]⟩
abbrev S1x128 : Shape := ⟨2, ![1, 128]⟩
abbrev S8192x256 : Shape := ⟨2, ![8192, 256]⟩
abbrev S1x256 : Shape := ⟨2, ![1, 256]⟩
abbrev S256x8192 : Shape := ⟨2, ![256, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 104
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S8192x128, .f32⟩
  | .hbm, ⟨45, _⟩ => ⟨S8192x128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x8192, .i32⟩
  | .hbm, ⟨61, _⟩ => ⟨S8192x8192, .i32⟩
  | .hbm, ⟨62, _⟩ => ⟨S_, .i32⟩
  | .hbm, ⟨63, _⟩ => ⟨S8192x8192, .i32⟩
  | .hbm, ⟨64, _⟩ => ⟨S8192x8192, .i32⟩
  | .hbm, ⟨65, _⟩ => ⟨S8192x8192, .i1⟩
  | .hbm, ⟨66, _⟩ => ⟨S8192x8192, .f32⟩
  | .hbm, ⟨67, _⟩ => ⟨S256x8192, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192x1, .f32⟩
  | .hbm, ⟨86, _⟩ => ⟨S8192x8192, .f32⟩
  | .hbm, ⟨87, _⟩ => ⟨S8192x8192, .f32⟩
  | .hbm, ⟨88, _⟩ => ⟨S1x8192, .f32⟩
  | .hbm, ⟨89, _⟩ => ⟨S8192x8192, .f32⟩
  | .hbm, ⟨90, _⟩ => ⟨S8192x8192, .f32⟩
  | .hbm, ⟨91, _⟩ => ⟨S8192x128, .f32⟩
  | .hbm, ⟨92, _⟩ => ⟨S1x128, .f32⟩
  | .hbm, ⟨93, _⟩ => ⟨S8192x128, .f32⟩
  | .hbm, ⟨94, _⟩ => ⟨S8192x128, .f32⟩
  | .hbm, ⟨95, _⟩ => ⟨S8192x128, .f32⟩
  | .hbm, ⟨96, _⟩ => ⟨S_, .f32⟩
  | .hbm, ⟨97, _⟩ => ⟨S_, .f32⟩
  | .hbm, ⟨98, _⟩ => ⟨S8192x128, .f32⟩
  | .hbm, ⟨99, _⟩ => ⟨S8192x128, .i1⟩
  | .hbm, ⟨100, _⟩ => ⟨S_, .f32⟩
  | .hbm, ⟨101, _⟩ => ⟨S8192x128, .f32⟩
  | .hbm, ⟨102, _⟩ => ⟨S8192x128, .f32⟩
  | .hbm, ⟨103, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_3 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_4 : Ref sig .tc := ⟨.hbm, 71, rfl⟩
abbrev main_v36 : Ref sig .tc := ⟨.hbm, 72, rfl⟩
abbrev main_v37 : Ref sig .tc := ⟨.hbm, 73, rfl⟩
abbrev main_cst_5 : Ref sig .tc := ⟨.hbm, 74, rfl⟩
abbrev main_v38 : Ref sig .tc := ⟨.hbm, 75, rfl⟩
abbrev main_v39 : Ref sig .tc := ⟨.hbm, 76, rfl⟩
abbrev main_cst_6 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_7 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_8 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_v57 : Ref sig .tc := ⟨.hbm, 103, rfl⟩

abbrev nD : Nat := 1
abbrev τ : Topo := Topo.v7x

variable {F : FTy → Type} [FloatOps F]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x8192 : S_.BroadcastsInDim S8192x8192 (![] : Fin 0 → Fin S8192x8192.rank)
  transposes_S8192x256_S256x8192_1_0 : S8192x256.Transposes [1, 0] S256x8192
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x128 : S_.BroadcastsInDim S8192x128 (![] : Fin 0 → Fin S8192x128.rank)
  dot_S8192x128_S128x256_S8192x256_1_0_0_1_n_n_wf : DotDims.WF S8192x128 S128x256 S8192x256 [1] [0] [0] [1] [] []
  dot_S8192x256_S256x8192_S8192x8192_1_0_0_1_n_n_wf : DotDims.WF S8192x256 S256x8192 S8192x8192 [1] [0] [0] [1] [] []
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.RefRun.lean ====
/-
  The reference program's run: @main of the reference as the straight line of its
  ninety-six StableHLO operations, the module-local functions it calls (the variance with its nested select,
  the leaky rectifier with its nested select) unfolded at their call sites over the calls' buffer records.
  The first forty-eight operations (the column mean, the variance, the normalisation and the first
  projection, ending at `main_v22`) are `opsA`; the remaining forty-eight (mask, identity matrix, the Gram
  matrix of the projected features, the logistic spelt out, floor, row sums, inverse square roots, the two
  scalings, the second projection, the contraction and the rectifier) are `opsB`; `ops = opsA ++ opsB`.
  `main_eq`: @main is `StableHlo.seq ops` (the functions' bodies unfolded, sequencing reassociated).
  `run`: every weakly fair execution terminates with each TensorCore buffer at the operations' fold over the
  launch contents (`StableHlo.run_seq`). `argK_kept`: no operation writes an argument's buffer.
-/
import proofs.«126049_j24678882083163_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first forty-eight operations, in order: @main's six up to the call of the variance, the variance's
    nineteen and its nested select's three over the call's buffers, then @main's twenty up to the projected
    features `main_v22`. -/
abbrev opsA : List (HloOp τ sig (Elt F)) :=
  [ StableHlo.nullary main_cst (constant S_ .f32 0x00000000#32),
    StableHlo.binary main_arg0 main_cst main_v0 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_0 (constant S_ .f32 0x46000000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S8192x128, .f32⟩) (.of main_call0_cst : StableHlo.TRef sig ⟨S_, .f32⟩) (.of main_call0_v0 : StableHlo.TRef sig ⟨S128, .f32⟩) (fun x v => Host.reduceAdd x v reducesTo_S8192x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x46000000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S8192x128, .f32⟩) (broadcastInDim S8192x128 ![0, 1] bcast_S1x128_S8192x128_0_1),
    StableHlo.TRef.binary (.of main_arg0 : StableHlo.TRef sig ⟨S8192x128, .f32⟩) (.of main_call0_v4 : StableHlo.TRef sig ⟨S8192x128, .f32⟩) (.of main_call0_v5 : StableHlo.TRef sig ⟨S8192x128, .f32⟩) subf,
    StableHlo.TRef.binary (.of main_call0_v5 : StableHlo.TRef sig ⟨S8192x128, .f32⟩) (.of main_call0_v5 : StableHlo.TRef sig ⟨S8192x128, .f32⟩) (.of main_call0_v6 : StableHlo.TRef sig ⟨S8192x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x128, .f32⟩) (.of main_call0_cst_2 : StableHlo.TRef sig ⟨S_, .f32⟩) (.of main_call0_v9 : StableHlo.TRef sig ⟨S128, .f32⟩) (fun x v => Host.reduceAdd x v reducesTo_S8192x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v3 : StableHlo.TRef sig ⟨S128, .f32⟩) (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S8192x128 ![0, 1] bcast_S1x128_S8192x128_0_1 : (⟨S1x128, .f32⟩ : BufTy).Contents (Elt F) → (⟨S8192x128, .f32⟩ : BufTy).Contents (Elt F)),
    StableHlo.binary main_arg0 main_v5 main_v6 (subf : (⟨S8192x128, .f32⟩ : BufTy).Contents (Elt F) → (⟨S8192x128, .f32⟩ : BufTy).Contents (Elt F) → (⟨S8192x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.rsqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S8192x128 ![0, 1] bcast_S1x128_S8192x128_0_1 : (⟨S1x128, .f32⟩ : BufTy).Contents (Elt F) → (⟨S8192x128, .f32⟩ : BufTy).Contents (Elt F)),
    StableHlo.binary main_v6 main_v11 main_v12 (mulf : (⟨S8192x128, .f32⟩ : BufTy).Contents (Elt F) → (⟨S8192x128, .f32⟩ : BufTy).Contents (Elt F) → (⟨S8192x128, .f32⟩ : BufTy).Contents (Elt F)),
    StableHlo.unary main_arg2 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S8192x128 ![0, 1] bcast_S1x128_S8192x128_0_1 : (⟨S1x128, .f32⟩ : BufTy).Contents (Elt F) → (⟨S8192x128, .f32⟩ : BufTy).Contents (Elt F)),
    StableHlo.binary main_v12 main_v14 main_v15 (mulf : (⟨S8192x128, .f32⟩ : BufTy).Contents (Elt F) → (⟨S8192x128, .f32⟩ : BufTy).Contents (Elt F) → (⟨S8192x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S8192x128 ![0, 1] bcast_S1x128_S8192x128_0_1 : (⟨S1x128, .f32⟩ : BufTy).Contents (Elt F) → (⟨S8192x128, .f32⟩ : BufTy).Contents (Elt F)),
    StableHlo.binary main_v15 main_v17 main_v18 (addf : (⟨S8192x128, .f32⟩ : BufTy).Contents (Elt F) → (⟨S8192x128, .f32⟩ : BufTy).Contents (Elt F) → (⟨S8192x128, .f32⟩ : BufTy).Contents (Elt F)),
    StableHlo.binary main_v18 main_arg4 main_v19 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.unary main_arg5 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S8192x256 ![0, 1] bcast_S1x256_S8192x256_0_1 : (⟨S1x256, .f32⟩ : BufTy).Contents (Elt F) → (⟨S8192x256, .f32⟩ : BufTy).Contents (Elt F)),
    StableHlo.binary main_v19 main_v21 main_v22 (addf : (⟨S8192x256, .f32⟩ : BufTy).Contents (Elt F) → (⟨S8192x256, .f32⟩ : BufTy).Contents (Elt F) → (⟨S8192x256, .f32⟩ : BufTy).Contents (Elt F)) ]

/-- The remaining forty-eight operations, in order: @main's forty-one from the mask to the slope constant,
    then the leaky rectifier's six and its nested select over the call's buffers, ending at `main_v57`. -/
abbrev opsB : List (HloOp τ sig (Elt F)) :=
  [ StableHlo.nullary main_cst_2 (constant S_ .f32 0x3727C5AC#32),
    StableHlo.unary main_cst_2 main_v23 (broadcastInDim S8192x8192 ![] bcast_S_S8192x8192 : (⟨S_, .f32⟩ : BufTy).Contents (Elt F) → (⟨S8192x8192, .f32⟩ : BufTy).Contents (Elt F)),
    StableHlo.binary main_arg1 main_v23 main_v24 (mulf : (⟨S8192x8192, .f32⟩ : BufTy).Contents (Elt F) → (⟨S8192x8192, .f32⟩ : BufTy).Contents (Elt F) → (⟨S8192x8192, .f32⟩ : BufTy).Contents (Elt F)),
    StableHlo.unary main_v24 main_v25 (Host.ceil : (⟨S8192x8192, .f32⟩ : BufTy).Contents (Elt F) → (⟨S8192x8192, .f32⟩ : BufTy).Contents (Elt F)),
    StableHlo.nullary main_v26 (iotaInDim S8192x8192 32 0),
    StableHlo.nullary main_v27 (iotaInDim S8192x8192 32 1),
    StableHlo.nullary main_c_3 (constantI S_ 32 0#32),
    StableHlo.unary main_c_3 main_v28 (broadcastInDim S8192x8192 ![] bcast_S_S8192x8192 : (⟨S_, .i32⟩ : BufTy).Contents (Elt F) → (⟨S8192x8192, .i32⟩ : BufTy).Contents (Elt F)),
    StableHlo.binary main_v26 main_v28 main_v29 (addi : (⟨S8192x8192, .i32⟩ : BufTy).Contents (Elt F) → (⟨S8192x8192, .i32⟩ : BufTy).Contents (Elt F) → (⟨S8192x8192, .i32⟩ : BufTy).Contents (Elt F)),
    StableHlo.binary main_v29 main_v27 main_v30 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v30 main_v31 (uitofp .f32 : (⟨S8192x8192, .i1⟩ : BufTy).Contents (Elt F) → (⟨S8192x8192, .f32⟩ : BufTy).Contents (Elt F)),
    StableHlo.unary main_v22 main_v32 ((transpose S256x8192 [1, 0] · transposes_S8192x256_S256x8192_1_0) : (⟨S8192x256, .f32⟩ : BufTy).Contents (Elt F) → (⟨S256x8192, .f32⟩ : BufTy).Contents (Elt F)),
    StableHlo.binary main_v22 main_v32 main_v33 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.unary main_v33 main_v34 (Host.negf : (⟨S8192x8192, .f32⟩ : BufTy).Contents (Elt F) → (⟨S8192x8192, .f32⟩ : BufTy).Contents (Elt F)),
    StableHlo.unary main_v34 main_v35 (Host.exp : (⟨S8192x8192, .f32⟩ : BufTy).Contents (Elt F) → (⟨S8192x8192, .f32⟩ : BufTy).Contents (Elt F)),
    StableHlo.nullary main_cst_4 (constant S_ .f32 0x3F800000#32),
    StableHlo.unary main_cst_4 main_v36 (broadcastInDim S8192x8192 ![] bcast_S_S8192x8192 : (⟨S_, .f32⟩ : BufTy).Contents (Elt F) → (⟨S8192x8192, .f32⟩ : BufTy).Contents (Elt F)),
    StableHlo.binary main_v36 main_v35 main_v37 (addf : (⟨S8192x8192, .f32⟩ : BufTy).Contents (Elt F) → (⟨S8192x8192, .f32⟩ : BufTy).Contents (Elt F) → (⟨S8192x8192, .f32⟩ : BufTy).Contents (Elt F)),
    StableHlo.nullary main_cst_5 (constant S_ .f32 0x3F800000#32),
    StableHlo.unary main_cst_5 main_v38 (broadcastInDim S8192x8192 ![] bcast_S_S8192x8192 : (⟨S_, .f32⟩ : BufTy).Contents (Elt F) → (⟨S8192x8192, .f32⟩ : BufTy).Contents (Elt F)),
    StableHlo.binary main_v38 main_v37 main_v39 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_6 (constant S_ .f32 0x3DCCCCCD#32),
    StableHlo.unary main_cst_6 main_v40 (broadcastInDim S8192x8192 ![] bcast_S_S8192x8192 : (⟨S_, .f32⟩ : BufTy).Contents (Elt F) → (⟨S8192x8192, .f32⟩ : BufTy).Contents (Elt F)),
    StableHlo.binary main_v39 main_v40 main_v41 (maximumf : (⟨S8192x8192, .f32⟩ : BufTy).Contents (Elt F) → (⟨S8192x8192, .f32⟩ : BufTy).Contents (Elt F) → (⟨S8192x8192, .f32⟩ : BufTy).Contents (Elt F)),
    StableHlo.binary main_v41 main_v25 main_v42 (mulf : (⟨S8192x8192, .f32⟩ : BufTy).Contents (Elt F) → (⟨S8192x8192, .f32⟩ : BufTy).Contents (Elt F) → (⟨S8192x8192, .f32⟩ : BufTy).Contents (Elt F)),
    StableHlo.binary main_v42 main_v31 main_v43 (addf : (⟨S8192x8192, .f32⟩ : BufTy).Contents (Elt F) → (⟨S8192x8192, .f32⟩ : BufTy).Contents (Elt F) → (⟨S8192x8192, .f32⟩ : BufTy).Contents (Elt F)),
    StableHlo.nullary main_cst_7 (constant S_ .f32 0x00000000#32),
    StableHlo.binary main_v43 main_cst_7 main_v44 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v44 main_v45 (Host.rsqrt : (⟨S8192, .f32⟩ : BufTy).Contents (Elt F) → (⟨S8192, .f32⟩ : BufTy).Contents (Elt F)),
    StableHlo.unary main_v45 main_v46 (broadcastInDim S8192x1 ![0] bcast_S8192_S8192x1_0 : (⟨S8192, .f32⟩ : BufTy).Contents (Elt F) → (⟨S8192x1, .f32⟩ : BufTy).Contents (Elt F)),
    StableHlo.unary main_v46 main_v47 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v47 main_v43 main_v48 (mulf : (⟨S8192x8192, .f32⟩ : BufTy).Contents (Elt F) → (⟨S8192x8192, .f32⟩ : BufTy).Contents (Elt F) → (⟨S8192x8192, .f32⟩ : BufTy).Contents (Elt F)),
    StableHlo.unary main_v45 main_v49 (broadcastInDim S1x8192 ![1] bcast_S8192_S1x8192_1 : (⟨S8192, .f32⟩ : BufTy).Contents (Elt F) → (⟨S1x8192, .f32⟩ : BufTy).Contents (Elt F)),
    StableHlo.unary main_v49 main_v50 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v48 main_v50 main_v51 (mulf : (⟨S8192x8192, .f32⟩ : BufTy).Contents (Elt F) → (⟨S8192x8192, .f32⟩ : BufTy).Contents (Elt F) → (⟨S8192x8192, .f32⟩ : BufTy).Contents (Elt F)),
    StableHlo.binary main_v18 main_arg6 main_v52 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg7 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S8192x128 ![0, 1] bcast_S1x128_S8192x128_0_1 : (⟨S1x128, .f32⟩ : BufTy).Contents (Elt F) → (⟨S8192x128, .f32⟩ : BufTy).Contents (Elt F)),
    StableHlo.binary main_v52 main_v54 main_v55 (addf : (⟨S8192x128, .f32⟩ : BufTy).Contents (Elt F) → (⟨S8192x128, .f32⟩ : BufTy).Contents (Elt F) → (⟨S8192x128, .f32⟩ : BufTy).Contents (Elt F)),
    StableHlo.binary main_v51 main_v55 main_v56 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    StableHlo.nullary main_cst_8 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x128, .f32⟩) (broadcastInDim S8192x128 ![] bcast_S_S8192x128),
    StableHlo.TRef.binary (.of main_v56 : StableHlo.TRef sig ⟨S8192x128, .f32⟩) (.of main_call1_v0 : StableHlo.TRef sig ⟨S8192x128, .f32⟩) (.of main_call1_v1 : StableHlo.TRef sig ⟨S8192x128, .i1⟩) (cmpf .oge),
    StableHlo.TRef.unary (.of main_cst_8 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S8192x128, .f32⟩) (broadcastInDim S8192x128 ![] bcast_S_S8192x128),
    StableHlo.TRef.binary (.of main_call1_v3 : StableHlo.TRef sig ⟨S8192x128, .f32⟩) (.of main_v56 : StableHlo.TRef sig ⟨S8192x128, .f32⟩) (.of main_call1_v4 : StableHlo.TRef sig ⟨S8192x128, .f32⟩) mulf,
    StableHlo.TRef.ternary (.of main_call1_v1 : StableHlo.TRef sig ⟨S8192x128, .i1⟩) (.of main_v56 : StableHlo.TRef sig ⟨S8192x128, .f32⟩) (.of main_call1_v4 : StableHlo.TRef sig ⟨S8192x128, .f32⟩) (.of main_v57 : StableHlo.TRef sig ⟨S8192x128, .f32⟩) select ]

/-- @main's ninety-six operations, in program order, the calls unfolded. -/
abbrev ops : List (HloOp τ sig (Elt F)) := opsA ++ opsB

-- ninety-six binds re-associated: the rewrite under the chain recurses once per statement
set_option maxRecDepth 8192 in
set_option maxHeartbeats 4000000 in
/-- @main is that straight line: its two windows in order, the functions' definitions unfolded at their calls and
    the records at their fields; both sides are one chain of `hlo` steps once sequencing is reassociated. -/
theorem main_eq (c : Dev nD) : main (F := F) c = seq ops := by
  simp only [main, main_part0, main_part1, fn_var.body, fn_where.body, fn_leaky_relu.body, fn_where_0.body,
    ops, opsA, opsB, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation of the first half touches TensorCore references only. -/
theorem opsA_sub : (opsA : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..⟩

/-- Each operation of the second half touches TensorCore references only. -/
theorem opsB_sub : (opsB : List (HloOp τ sig (Elt F))).Forall fun op => op.bufs ⊆ tcRefs τ sig :=
  ⟨nullary_bufs_sub .., unary_bufs_sub .., binary_bufs_sub .., unary_bufs_sub .., nullary_bufs_sub .., nullary_bufs_sub ..,
    nullary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    binary_bufs_sub .., binary_bufs_sub .., nullary_bufs_sub .., binary_bufs_sub .., unary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..⟩

/-- Each operation touches TensorCore references only. -/
theorem ops_sub : (ops : List (HloOp τ sig (Elt F))).Forall fun op => op.bufs ⊆ tcRefs τ sig :=
  List.forall_iff_forall_mem.mpr fun op hop => by
    rcases List.mem_append.mp hop with h | h
    · exact List.forall_iff_forall_mem.mp opsA_sub op h
    · exact List.forall_iff_forall_mem.mp opsB_sub op h

/-- Every operation determines its results: none allocates a buffer of unchosen contents. -/
theorem ops_fresh : ∀ op ∈ (ops : List (HloOp τ sig (Elt F))), op.fresh = ∅ := by
  intro op hop
  rcases List.mem_append.mp hop with h | h
  · (repeat (cases h with | head => rfl | tail _ h => ?_)); exact nomatch h
  · (repeat (cases h with | head => rfl | tail _ h => ?_)); exact nomatch h

/-- At the compiled mesh, for any float values, from any memory with zero counters: every weakly fair execution of
    @main on the TensorCores terminates, and every final state has each TensorCore buffer at the operations' fold
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ### The arguments end as launched: no operation writes one -/

theorem arg0_kept (W : Valuation τ sig (Elt F)) :
    after ops W (main_arg0 : DevRef τ sig) = W (main_arg0 : DevRef τ sig) :=
  after_of_forall_not_mem (b := Proc.devRef .tc main_arg0) _ _ (List.forall_iff_forall_mem.mp (by
    simp only [ops, opsA, opsB, List.cons_append, List.nil_append, List.Forall, nullary_writes, unary_writes, binary_writes,
      ternary_writes, Finset.mem_singleton]
    repeat' apply And.intro
    all_goals exact devRef_ne_of_ne (by decide)))
theorem arg1_kept (W : Valuation τ sig (Elt F)) :
    after ops W (main_arg1 : DevRef τ sig) = W (main_arg1 : DevRef τ sig) :=
  after_of_forall_not_mem (b := Proc.devRef .tc main_arg1) _ _ (List.forall_iff_forall_mem.mp (by
    simp only [ops, opsA, opsB, List.cons_append, List.nil_append, List.Forall, nullary_writes, unary_writes, binary_writes,
      ternary_writes, Finset.mem_singleton]
    repeat' apply And.intro
    all_goals exact devRef_ne_of_ne (by decide)))
theorem arg2_kept (W : Valuation τ sig (Elt F)) :
    after ops W (main_arg2 : DevRef τ sig) = W (main_arg2 : DevRef τ sig) :=
  after_of_forall_not_mem (b := Proc.devRef .tc main_arg2) _ _ (List.forall_iff_forall_mem.mp (by
    simp only [ops, opsA, opsB, List.cons_append, List.nil_append, List.Forall, nullary_writes, unary_writes, binary_writes,
      ternary_writes, Finset.mem_singleton]
    repeat' apply And.intro
    all_goals exact devRef_ne_of_ne (by decide)))
theorem arg3_kept (W : Valuation τ sig (Elt F)) :
    after ops W (main_arg3 : DevRef τ sig) = W (main_arg3 : DevRef τ sig) :=
  after_of_forall_not_mem (b := Proc.devRef .tc main_arg3) _ _ (List.forall_iff_forall_mem.mp (by
    simp only [ops, opsA, opsB, List.cons_append, List.nil_append, List.Forall, nullary_writes, unary_writes, binary_writes,
      ternary_writes, Finset.mem_singleton]
    repeat' apply And.intro
    all_goals exact devRef_ne_of_ne (by decide)))
theorem arg4_kept (W : Valuation τ sig (Elt F)) :
    after ops W (main_arg4 : DevRef τ sig) = W (main_arg4 : DevRef τ sig) :=
  after_of_forall_not_mem (b := Proc.devRef .tc main_arg4) _ _ (List.forall_iff_forall_mem.mp (by
    simp only [ops, opsA, opsB, List.cons_append, List.nil_append, List.Forall, nullary_writes, unary_writes, binary_writes,
      ternary_writes, Finset.mem_singleton]
    repeat' apply And.intro
    all_goals exact devRef_ne_of_ne (by decide)))
theorem arg5_kept (W : Valuation τ sig (Elt F)) :
    after ops W (main_arg5 : DevRef τ sig) = W (main_arg5 : DevRef τ sig) :=
  after_of_forall_not_mem (b := Proc.devRef .tc main_arg5) _ _ (List.forall_iff_forall_mem.mp (by
    simp only [ops, opsA, opsB, List.cons_append, List.nil_append, List.Forall, nullary_writes, unary_writes, binary_writes,
      ternary_writes, Finset.mem_singleton]
    repeat' apply And.intro
    all_goals exact devRef_ne_of_ne (by decide)))
theorem arg6_kept (W : Valuation τ sig (Elt F)) :
    after ops W (main_arg6 : DevRef τ sig) = W (main_arg6 : DevRef τ sig) :=
  after_of_forall_not_mem (b := Proc.devRef .tc main_arg6) _ _ (List.forall_iff_forall_mem.mp (by
    simp only [ops, opsA, opsB, List.cons_append, List.nil_append, List.Forall, nullary_writes, unary_writes, binary_writes,
      ternary_writes, Finset.mem_singleton]
    repeat' apply And.intro
    all_goals exact devRef_ne_of_ne (by decide)))
theorem arg7_kept (W : Valuation τ sig (Elt F)) :
    after ops W (main_arg7 : DevRef τ sig) = W (main_arg7 : DevRef τ sig) :=
  after_of_forall_not_mem (b := Proc.devRef .tc main_arg7) _ _ (List.forall_iff_forall_mem.mp (by
    simp only [ops, opsA, opsB, List.cons_append, List.nil_append, List.Forall, nullary_writes, unary_writes, binary_writes,
      ternary_writes, Finset.mem_singleton]
    repeat' apply And.intro
    all_goals exact devRef_ne_of_ne (by decide)))

end Cert.ReferenceIdeal.Hand

end
-- ==== Proof.Spec.lean ====
/-
  The mathematics of the dynamic-adjacency graph convolution, entry by entry on the extended reals.

  From projected features `hx` (one row of 256 numbers per node) and an adjacency array `a`:
  the affinity of the pair (i, j) is the logistic of the inner product of rows i and j, floored at one tenth;
  the mask is the ceiling of the adjacency entry times the f32 word of 1e-5; the affinity matrix is
  `S i j = affinity i j * mask i j + [i = j]`; `rowsum i` is the sum of row i of S and `dinv i` its inverse square root.
  The propagated output scales S on both sides by `dinv`, contracts with the projected features `hw`
  and applies a leaky rectifier with slope one hundredth. The two programs group the products differently
  (`outK`: the row factor applied after the contraction; `outR`: inside it) and test the sign differently
  (`lrK`: strictly positive; `lrR`: non-negative).
-/
import Idealize.ShloMosaic.PureOps.Ideal
import Idealize.ShloMosaic.Lib.ValueIdx

noncomputable section

open scoped BigOperators

namespace Cert.Gcn

open Idealize.ShloMosaic Idealize.ShloMosaic.ValueIdx

abbrev SNN : Shape := ⟨2, ![8192, 8192]⟩
abbrev SNT : Shape := ⟨2, ![8192, 256]⟩
abbrev SND : Shape := ⟨2, ![8192, 128]⟩
abbrev SN1 : Shape := ⟨2, ![8192, 1]⟩

/-- The f32 words the programs carry, read at the ideal instance: 0.1, 1e-5, 1, 0 and 0.01. -/
def cTenth : EReal := Ideal.ofBits .f32 0x3DCCCCCD#32
def cTiny : EReal := Ideal.ofBits .f32 0x3727C5AC#32
def cOne : EReal := Ideal.ofBits .f32 0x3F800000#32
def cZero : EReal := Ideal.ofBits .f32 0x00000000#32
def cSlope : EReal := Ideal.ofBits .f32 0x3C23D70A#32

/-- The inner product of rows i and j of the projected features. -/
def logit (hx : SNT.Idx → EReal) (i j : Fin 8192) : EReal := ∑ k : Fin 256, hx (ix2 i k) * hx (ix2 j k)
/-- The affinity: the logistic of the inner product, floored at one tenth. -/
def aff (hx : SNT.Idx → EReal) (i j : Fin 8192) : EReal := max (Ideal.logistic (logit hx i j)) cTenth
/-- The mask: the ceiling of the scaled adjacency entry. -/
def mask (a : SNN.Idx → EReal) (i j : Fin 8192) : EReal := Ideal.liftRound Int.ceil (a (ix2 i j) * cTiny)
/-- The identity matrix's entry. -/
def eye (i j : Fin 8192) : EReal := if i = j then cOne else cZero
/-- The affinity matrix with self loops. -/
def S (hx : SNT.Idx → EReal) (a : SNN.Idx → EReal) (i j : Fin 8192) : EReal := aff hx i j * mask a i j + eye i j
/-- The affinity matrix as an array. -/
def SArr (hx : SNT.Idx → EReal) (a : SNN.Idx → EReal) : SNN.Idx → EReal := fun p => S hx a (p 0) (p 1)
/-- The sum of a row of the affinity matrix. -/
def rowsum (hx : SNT.Idx → EReal) (a : SNN.Idx → EReal) (i : Fin 8192) : EReal := ∑ j : Fin 8192, S hx a i j
/-- The row sums as a column array. -/
def rowsumCol (hx : SNT.Idx → EReal) (a : SNN.Idx → EReal) : SN1.Idx → EReal := fun p => rowsum hx a (p 0)
/-- The inverse square root of a row sum. -/
def dinv (hx : SNT.Idx → EReal) (a : SNN.Idx → EReal) (i : Fin 8192) : EReal := Ideal.rsqrt (rowsum hx a i)

/-- The leaky rectifier that tests "strictly positive". -/
def lrK (v : EReal) : EReal := if cZero < v then v else cSlope * v
/-- The leaky rectifier that tests "non-negative". -/
def lrR (v : EReal) : EReal := if cZero ≤ v then v else cSlope * v

/-- One propagation step from ANY matrix `s`, scaled features `hws` and column of row factors `d`:
    contract row i of `s` with column k of `hws`, scale by the row factor, rectify. -/
def propK (s : SNN.Idx → EReal) (hws : SND.Idx → EReal) (d : SN1.Idx → EReal) : SND.Idx → EReal :=
  fun p => lrK ((∑ j : Fin 8192, s (ix2 (p 0) j) * hws (ix2 j (p 1))) * d (ix2 (p 0) 0))

/-- The output with the row factor applied after the contraction. -/
def outK (hx : SNT.Idx → EReal) (a : SNN.Idx → EReal) (hw : SND.Idx → EReal) : SND.Idx → EReal :=
  fun p => lrK ((∑ j : Fin 8192, S hx a (p 0) j * (hw (ix2 j (p 1)) * dinv hx a j)) * dinv hx a (p 0))
/-- The output with both factors inside the contraction. -/
def outR (hx : SNT.Idx → EReal) (a : SNN.Idx → EReal) (hw : SND.Idx → EReal) : SND.Idx → EReal :=
  fun p => lrR (∑ j : Fin 8192, ((dinv hx a (p 0) * S hx a (p 0) j) * dinv hx a j) * hw (ix2 j (p 1)))

/-- The mask is binary: every entry is zero or one. -/
def MaskBinary (a : SNN.Idx → EReal) : Prop := ∀ i j : Fin 8192, mask a i j = 0 ∨ mask a i j = 1

end Cert.Gcn

end
-- ==== Proof.LibSoftmaxRow.lean ====
/-
  One row of softmax attention on the extended reals, free of any program and of any shape.

  For a row of logits `l` over `n` keys, the row maximum is the fold of `max` over the row from an accumulator value
  `b`; the softmax weight of key `k` is `exp (l k - M) / ∑ k', exp (l k' - M)` at the ideal exponential and quotient; one
  output entry is the weights against a column of values. Two laws: taking the maximum with the accumulator's value once
  more changes nothing, and multiplication by a non-negative real number distributes over every finite sum of extended
  reals (infinite terms included), so a scale on every entry of one factor of a contraction is a scale on the contracted
  sum.
-/
import Idealize.ShloMosaic.PureOps.Ideal

noncomputable section

namespace Cert.Attn

open Idealize.ShloMosaic

/-- A row's maximum: the fold of `max` over the row, from the accumulator's value `b`. -/
def rowMax {n : ℕ} (b : EReal) (l : Fin n → EReal) : EReal :=
  (Finset.univ : Finset (Fin n)).fold max b l

/-- The softmax weight of key `k` in a row of logits `l`. -/
def weight {n : ℕ} (b : EReal) (l : Fin n → EReal) (k : Fin n) : EReal :=
  Ideal.div (Ideal.exp (l k - rowMax b l)) (∑ k' : Fin n, Ideal.exp (l k' - rowMax b l))

/-- One output entry: the softmax weights of the row against one column of values. -/
def attnRow {n : ℕ} (b : EReal) (l v : Fin n → EReal) : EReal :=
  ∑ k : Fin n, weight b l k * v k

/-- The accumulator's value is below the fold that starts from it, so taking the maximum with it again changes nothing. -/
theorem max_rowMax {n : ℕ} (b : EReal) (l : Fin n → EReal) : max b (rowMax b l) = rowMax b l :=
  max_eq_right ((Finset.le_fold_max b).mpr (Or.inl le_rfl))

/-- Multiplication by a non-negative real number distributes over a finite sum of extended reals. -/
theorem sum_mul_coe {ι : Type} (s : Finset ι) (a : ι → EReal) (r : ℝ) (hr : 0 ≤ r) :
    ∑ d ∈ s, a d * (r : EReal) = (∑ d ∈ s, a d) * (r : EReal) := by
  classical
  refine Finset.induction_on s (by simp) (fun x s hx ih => ?_)
  rw [Finset.sum_insert hx, Finset.sum_insert hx, ih,
    EReal.right_distrib_of_nonneg_of_ne_top (EReal.coe_nonneg.mpr hr) (EReal.coe_ne_top r)]

/-- Scaling every query entry before the contraction is scaling the contracted sum. -/
theorem scale_inside {n : ℕ} (q k : Fin n → EReal) (r : ℝ) (hr : 0 ≤ r) :
    ∑ d : Fin n, q d * (r : EReal) * k d = (∑ d : Fin n, q d * k d) * (r : EReal) := by
  rw [← sum_mul_coe Finset.univ (fun d => q d * k d) r hr]
  exact Finset.sum_congr rfl fun d _ => mul_right_comm _ _ _

end Cert.Attn

end
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.LibLogisticForm.lean ====
/-
  The logistic function spelt out. A program that expands the logistic function into a negation, an exponential, an
  addition and a division, with the ones written as the float word of 1.0, computes `1 / (1 + exp(−v))`; on the extended
  reals that is the logistic function (0 at −∞, 1 at +∞). Nothing here depends on a program.
-/
import Idealize.ShloMosaic.PureOps.Ideal
import Idealize.ShloMosaic.PureOps.Ideal.Laws

noncomputable section

namespace Cert.LogisticForm

open Idealize.ShloMosaic

/-- The single-precision float word of 1.0 is the real number one. -/
theorem ofBits_one_f32 : Ideal.ofBits .f32 0x3F800000#32 = 1 := by
  simp [Ideal.ofBits, Ideal.ieee, -EReal.coe_mul]; norm_num

/-- One over one plus the exponential of the negated argument, the ones written as the float word of 1.0, is the
    logistic function of the argument, for every extended real. -/
theorem logistic_spelt (v : EReal) :
    Ideal.div (Ideal.ofBits .f32 0x3F800000#32) (Ideal.ofBits .f32 0x3F800000#32 + Ideal.exp (-v)) = Ideal.logistic v := by
  rw [ofBits_one_f32]; rfl

/-- The same with the ones already read as the number one. -/
theorem logistic_spelt_one (v : EReal) : Ideal.div 1 (1 + Ideal.exp (-v)) = Ideal.logistic v := rfl

end Cert.LogisticForm

end
-- ==== Proof.Algebra.lean ====
/-
  The algebra of the dynamic-adjacency graph convolution on the extended reals: the two leaky rectifiers agree, the
  affinity matrix has non-negative real entries with a diagonal of at least one, so every row sum is a real number of
  at least one and its inverse square root is a non-negative real; hence the row factor moves into the contraction
  and the two groupings of the products give the same output.
-/
import proofs.«126049_j24678882083163_1_alg».proof.Proof.Spec
import proofs.«126049_j24678882083163_1_alg».proof.Proof.LibSoftmaxRow
import proofs.«126049_j24678882083163_1_alg».proof.Proof.LibRealEntries
import proofs.«126049_j24678882083163_1_alg».proof.Proof.LibLogisticForm
import Idealize.ShloMosaic.PureOps.Ideal.Laws

noncomputable section

open scoped BigOperators

namespace Cert.Gcn

open Idealize.ShloMosaic Idealize.ShloMosaic.ValueIdx

/-- The zero word is the number zero. -/
theorem cZero_eq : cZero = 0 := Ideal.ofBits_zero_f32

/-- The word of 1.0 is the number one. -/
theorem cOne_eq : cOne = 1 := Cert.LogisticForm.ofBits_one_f32

/-- The two leaky rectifiers agree: the tests differ only at zero, where the slope times zero is zero. -/
theorem lrK_eq_lrR (v : EReal) : lrK v = lrR v := by
  unfold lrK lrR
  rw [cZero_eq]
  rcases lt_trichotomy (0 : EReal) v with h | h | h
  · rw [if_pos h, if_pos h.le]
  · subst h; rw [if_neg (lt_irrefl _), if_pos le_rfl, mul_zero]
  · rw [if_neg (not_lt.mpr h.le), if_neg (not_le.mpr h)]

/-- The logistic function of any extended real is a non-negative real number. -/
theorem logistic_real (x : EReal) : ∃ r : ℝ, 0 ≤ r ∧ Ideal.logistic x = (r : EReal) := by
  induction x using EReal.rec with
  | bot => exact ⟨0, le_rfl, by rw [Ideal.logistic_bot]; rfl⟩
  | top => exact ⟨1, zero_le_one, by rw [Ideal.logistic_top]; rfl⟩
  | coe r => exact ⟨(1 + Real.exp (-r))⁻¹, inv_nonneg.mpr (by positivity), Ideal.logistic_coe r⟩

/-- The word of one tenth is a non-negative real number. -/
theorem cTenth_real : ∃ t : ℝ, 0 ≤ t ∧ cTenth = (t : EReal) := by
  refine ⟨(13421773 : ℝ) * (2 : ℝ) ^ (-27 : ℤ), by positivity, ?_⟩
  unfold cTenth
  simp [Ideal.ofBits, Ideal.ieee, -EReal.coe_mul]

/-- The affinity is a non-negative real number. -/
theorem aff_real (hx : SNT.Idx → EReal) (i j : Fin 8192) : ∃ r : ℝ, 0 ≤ r ∧ aff hx i j = (r : EReal) := by
  obtain ⟨l, hl0, hl⟩ := logistic_real (logit hx i j)
  obtain ⟨t, ht0, ht⟩ := cTenth_real
  refine ⟨max l t, le_max_of_le_left hl0, ?_⟩
  unfold aff
  rw [hl, ht]
  exact (EReal.coe_strictMono.monotone.map_max).symm

/-- A binary mask entry is a non-negative real number. -/
theorem mask_real {a : SNN.Idx → EReal} (h : MaskBinary a) (i j : Fin 8192) :
    ∃ m : ℝ, 0 ≤ m ∧ mask a i j = (m : EReal) := by
  rcases h i j with h0 | h1
  · exact ⟨0, le_rfl, by rw [h0]; rfl⟩
  · exact ⟨1, zero_le_one, by rw [h1]; rfl⟩

/-- An entry of the identity matrix is a non-negative real number. -/
theorem eye_real (i j : Fin 8192) : ∃ e : ℝ, 0 ≤ e ∧ eye i j = (e : EReal) := by
  unfold eye
  by_cases hij : i = j
  · exact ⟨1, zero_le_one, by rw [if_pos hij, cOne_eq]; rfl⟩
  · exact ⟨0, le_rfl, by rw [if_neg hij, cZero_eq]; rfl⟩

/-- The identity matrix's diagonal is one. -/
theorem eye_diag (i : Fin 8192) : eye i i = ((1 : ℝ) : EReal) := by
  unfold eye
  rw [if_pos rfl, cOne_eq]; rfl

/-- Every entry of the affinity matrix is a non-negative real number. -/
theorem S_real (hx : SNT.Idx → EReal) {a : SNN.Idx → EReal} (h : MaskBinary a) (i j : Fin 8192) :
    ∃ r : ℝ, 0 ≤ r ∧ S hx a i j = (r : EReal) := by
  obtain ⟨r, hr0, hr⟩ := aff_real hx i j
  obtain ⟨m, hm0, hm⟩ := mask_real h i j
  obtain ⟨e, he0, he⟩ := eye_real i j
  refine ⟨r * m + e, add_nonneg (mul_nonneg hr0 hm0) he0, ?_⟩
  unfold S
  rw [hr, hm, he, EReal.coe_add, EReal.coe_mul]

/-- Every diagonal entry of the affinity matrix is a real number of at least one. -/
theorem S_diag_ge (hx : SNT.Idx → EReal) {a : SNN.Idx → EReal} (h : MaskBinary a) (i : Fin 8192) :
    ∃ r : ℝ, 1 ≤ r ∧ S hx a i i = (r : EReal) := by
  obtain ⟨r, hr0, hr⟩ := aff_real hx i i
  obtain ⟨m, hm0, hm⟩ := mask_real h i i
  refine ⟨r * m + 1, le_add_of_nonneg_left (mul_nonneg hr0 hm0), ?_⟩
  unfold S
  rw [hr, hm, eye_diag, EReal.coe_add, EReal.coe_mul]

/-- Every row sum of the affinity matrix is a real number of at least one: a finite sum of non-negative reals one of
    which, the diagonal term, is at least one. -/
theorem rowsum_real (hx : SNT.Idx → EReal) {a : SNN.Idx → EReal} (h : MaskBinary a) (i : Fin 8192) :
    ∃ r : ℝ, 1 ≤ r ∧ rowsum hx a i = (r : EReal) := by
  choose f hf0 hf using fun j => S_real hx h i j
  obtain ⟨r, hr1, hr⟩ := S_diag_ge hx h i
  have hfi : f i = r := EReal.coe_eq_coe_iff.mp ((hf i).symm.trans hr)
  refine ⟨∑ j, f j, ?_, ?_⟩
  · calc (1 : ℝ) ≤ f i := hfi ▸ hr1
      _ ≤ ∑ j, f j := Finset.single_le_sum (fun j _ => hf0 j) (Finset.mem_univ i)
  · unfold rowsum
    rw [Cert.RealEntries.coe_sum]
    exact Finset.sum_congr rfl fun j _ => hf j

/-- The inverse square root of a row sum is a non-negative real number. -/
theorem dinv_real (hx : SNT.Idx → EReal) {a : SNN.Idx → EReal} (h : MaskBinary a) (i : Fin 8192) :
    ∃ r : ℝ, 0 ≤ r ∧ dinv hx a i = (r : EReal) := by
  obtain ⟨r, hr1, hr⟩ := rowsum_real hx h i
  refine ⟨(Real.sqrt r)⁻¹, inv_nonneg.mpr (Real.sqrt_nonneg r), ?_⟩
  unfold dinv
  rw [hr, Ideal.rsqrt_coe, if_neg (by linarith), if_neg (by linarith)]

/-- The two groupings of the products give the same output: the row factor is a non-negative real number, so it moves
    into the contraction, and each term is then a product of the same four factors. -/
theorem out_eq (hx : SNT.Idx → EReal) {a : SNN.Idx → EReal} (hw : SND.Idx → EReal) (h : MaskBinary a) :
    outK hx a hw = outR hx a hw := by
  funext p
  unfold outK outR
  rw [lrK_eq_lrR]
  obtain ⟨d, hd0, hd⟩ := dinv_real hx h (p 0)
  rw [hd, ← Cert.Attn.sum_mul_coe Finset.univ _ d hd0]
  refine congrArg lrR (Finset.sum_congr rfl fun j _ => ?_)
  ac_rfl

/-- One propagation step from the affinity matrix, the features scaled by the column factor and the column of row
    factors is the output with the row factor applied after the contraction. -/
theorem propK_eq_outK (hx : SNT.Idx → EReal) (a : SNN.Idx → EReal) (hw : SND.Idx → EReal) :
    propK (SArr hx a) (fun p => hw p * dinv hx a (p 0)) (fun p => dinv hx a (p 0)) = outK hx a hw := by
  funext p
  unfold propK outK SArr
  rfl

end Cert.Gcn

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibBitIndicator.lean ====
/-
  A comparison's bit as a number, on exact values.

  A comparison of two floats gives one bit. Programs turn it into the number 0 or 1 in two ways: by converting the
  bit itself as an unsigned integer, or by widening it with zeros to a 32-bit word and converting that as a signed
  integer (the top bit of the widened word is 0, so the signed reading is the unsigned one). Both give the real 0 or 1
  that is the bit's value: the indicator of the comparison. Nothing here depends on a program.
-/
import Idealize.ShloMosaic.PureOps.Ideal
import Idealize.ShloMosaic.Lib.ValueIdx

noncomputable section

namespace Cert.LibBitIndicator

open Idealize.ShloMosaic Idealize.ShloMosaic.ValueIdx

/-- A one-bit word widened to 32 bits with zeros and read as a signed integer is the bit: 0 or 1. -/
theorem toInt_setWidth_bit (b : BitVec 1) : (b.setWidth 32).toInt = (b.toNat : ℤ) := by
  by_cases h : b = 1#1
  · subst h; decide
  · rw [eq_zero_of_ne_one h]; decide

/-- Converting the widened word as a signed integer gives the bit as the real 0 or 1. -/
theorem sitofp_setWidth_bit (b : BitVec 1) :
    FloatOps.sitofp (F := Ideal) .f32 (b.setWidth 32) = (((b.toNat : ℝ)) : EReal) := by
  show (((b.setWidth 32).toInt : ℝ) : EReal) = _
  rw [toInt_setWidth_bit]; rfl

/-- Converting the bit itself as an unsigned integer gives the same. -/
theorem uitofp_bit (b : BitVec 1) : FloatOps.uitofp (F := Ideal) .f32 b = (((b.toNat : ℝ)) : EReal) := rfl

/-- So the two ways of turning a comparison's bit into a number agree. -/
theorem sitofp_setWidth_eq_uitofp (b : BitVec 1) :
    FloatOps.sitofp (F := Ideal) .f32 (b.setWidth 32) = FloatOps.uitofp (F := Ideal) .f32 b :=
  (sitofp_setWidth_bit b).trans (uitofp_bit b).symm

end Cert.LibBitIndicator

end
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.RefMath.lean ====
/-
  The reference's host operations on the affinity matrix, composed as pure terms and read entry by entry at the
  ideal values. From the projected features `hx` and the adjacency array `a`: the product of `hx` with its
  transpose, the logistic function spelt with a negation, an exponential, an addition and a division, the floor at
  one tenth, the ceiling of the scaled adjacency, and the identity matrix as the converted bit of "row index equals
  column index" give the affinity matrix; its row sums' inverse square roots scale it on both sides; the product with
  the projected features `hw` goes through the leaky rectifier written as a comparison and a selection.
-/
import proofs.«126049_j24678882083163_1_alg».proof.ReferenceIdeal
import proofs.«126049_j24678882083163_1_alg».proof.Proof.Spec
import proofs.«126049_j24678882083163_1_alg».proof.Proof.Algebra
import proofs.«126049_j24678882083163_1_alg».proof.Proof.LibMatmulAt
import proofs.«126049_j24678882083163_1_alg».proof.Proof.LibLogisticForm
import proofs.«126049_j24678882083163_1_alg».proof.Proof.LibBitIndicator
import proofs.«126049_j24678882083163_1_alg».proof.Proof.LibColumn
import proofs.«126049_j24678882083163_1_alg».proof.Proof.LibHostColumn
import proofs.«126049_j24678882083163_1_alg».proof.Proof.LibKeepdims
import Idealize.ShloMosaic.Lib.Affine
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.ShloMosaic.ValueIdx
open Cert.ReferenceIdeal Cert.ReferenceIdeal.Facts₀ Cert.ReferenceIdeal.Facts

variable [Cert.ReferenceIdeal.Facts]

/-! ## The composed terms -/

/-- The product of the projected features with their transpose. -/
def refLogit (hx : FVec Ideal S8192x256 .f32) : FVec Ideal S8192x8192 .f32 :=
  Host.dotGeneral (F := Ideal) dot_S8192x256_S256x8192_S8192x8192_1_0_0_1_n_n none hx
    (transpose S256x8192 [1, 0] hx transposes_S8192x256_S256x8192_1_0)

/-- The logistic function of the product, spelt out, floored at one tenth. -/
def refAff (hx : FVec Ideal S8192x256 .f32) : FVec Ideal S8192x8192 .f32 :=
  maximumf (F := Ideal)
    (Host.divf (F := Ideal) (broadcastInDim S8192x8192 ![] bcast_S_S8192x8192 (constant (F := Ideal) S_ .f32 0x3F800000#32))
      (addf (F := Ideal) (broadcastInDim S8192x8192 ![] bcast_S_S8192x8192 (constant (F := Ideal) S_ .f32 0x3F800000#32))
        (Host.exp (F := Ideal) (Host.negf (F := Ideal) (refLogit hx)))))
    (broadcastInDim S8192x8192 ![] bcast_S_S8192x8192 (constant (F := Ideal) S_ .f32 0x3DCCCCCD#32))

/-- The ceiling of the scaled adjacency. -/
def refMask (a : FVec Ideal S8192x8192 .f32) : FVec Ideal S8192x8192 .f32 :=
  Host.ceil (F := Ideal) (mulf (F := Ideal) a
    (broadcastInDim S8192x8192 ![] bcast_S_S8192x8192 (constant (F := Ideal) S_ .f32 0x3727C5AC#32)))

/-- The identity matrix: the converted bit of "row index plus zero equals column index". -/
def refEye : FVec Ideal S8192x8192 .f32 :=
  uitofp (F := Ideal) .f32 (cmpi .eq
    (addi (iotaInDim S8192x8192 32 0) (broadcastInDim S8192x8192 ![] bcast_S_S8192x8192 (constantI S_ 32 0#32)))
    (iotaInDim S8192x8192 32 1))

/-- The affinity matrix with self loops, as the reference composes it. -/
def refS (hx : FVec Ideal S8192x256 .f32) (a : FVec Ideal S8192x8192 .f32) : FVec Ideal S8192x8192 .f32 :=
  addf (F := Ideal) (mulf (F := Ideal) (refAff hx) (refMask a)) refEye

/-! ## Read entry by entry -/

/-- An entry of the product is the inner product of two rows of the projected features. -/
theorem refLogit_apply (hx : FVec Ideal S8192x256 .f32) (i j : Fin 8192) :
    refLogit hx (ix2 i j) = Cert.Gcn.logit hx i j := by
  unfold refLogit
  refine (Cert.KernelIdeal.Hand.dotGeneral_plain_apply' dot_S8192x256_S256x8192_S8192x8192_1_0_0_1_n_n rfl none hx _ (ix2 i j)).trans ?_
  unfold Cert.Gcn.logit
  refine Finset.sum_congr rfl fun k _ => ?_
  show hx (ix2 i k) * transpose S256x8192 [1, 0] hx transposes_S8192x256_S256x8192_1_0 (ix2 k j) = _
  rw [transpose_ix2_apply]

/-- An entry of the floored logistic term is the affinity. -/
theorem refAff_apply (hx : FVec Ideal S8192x256 .f32) (i j : Fin 8192) :
    refAff hx (ix2 i j) = Cert.Gcn.aff hx i j := by
  show max (Ideal.div (Ideal.ofBits .f32 0x3F800000#32)
      (Ideal.ofBits .f32 0x3F800000#32 + Ideal.exp (-(refLogit hx (ix2 i j))))) Cert.Gcn.cTenth = _
  rw [Cert.LogisticForm.logistic_spelt, refLogit_apply]
  rfl

/-- An entry of the ceiling term is the mask. -/
theorem refMask_apply (a : FVec Ideal S8192x8192 .f32) (i j : Fin 8192) :
    refMask a (ix2 i j) = Cert.Gcn.mask a i j := rfl

/-- Two indices below 2 ^ 32 are equal exactly when their 32-bit words are. -/
theorem ofNat_eq_iff {n : ℕ} (hn : n ≤ 2 ^ 32) (i j : Fin n) :
    BitVec.ofNat 32 i.val = BitVec.ofNat 32 j.val ↔ i = j := by
  constructor
  · intro h
    have h2 := congrArg BitVec.toNat h
    rw [BitVec.toNat_ofNat, BitVec.toNat_ofNat, Nat.mod_eq_of_lt (by have := i.isLt; omega),
      Nat.mod_eq_of_lt (by have := j.isLt; omega)] at h2
    exact Fin.ext h2
  · intro h; rw [h]

/-- An entry of the converted comparison is the identity matrix's. -/
theorem refEye_apply (i j : Fin 8192) : refEye (ix2 i j) = Cert.Gcn.eye i j := by
  show FloatOps.uitofp (F := Ideal) .f32
    (IntOp.cmpi .eq (IntOp.addi (BitVec.ofNat 32 i.val) 0#32) (BitVec.ofNat 32 j.val)) = _
  rw [Cert.LibBitIndicator.uitofp_bit]
  unfold Cert.Gcn.eye
  have h0 : IntOp.addi (BitVec.ofNat 32 i.val) 0#32 = BitVec.ofNat 32 i.val := BitVec.add_zero _
  rw [h0]
  by_cases hij : i = j
  · rw [if_pos hij, IntOp.cmpi_eq.2 ((ofNat_eq_iff (by norm_num) i j).2 hij), Cert.Gcn.cOne_eq]
    norm_num
  · rw [if_neg hij, eq_zero_of_ne_one (fun h => hij ((ofNat_eq_iff (by norm_num) i j).1 (IntOp.cmpi_eq.1 h))),
      Cert.Gcn.cZero_eq]
    norm_num

/-- The reference's affinity matrix is the affinity matrix. -/
theorem refS_eq (hx : FVec Ideal S8192x256 .f32) (a : FVec Ideal S8192x8192 .f32) :
    refS hx a = Cert.Gcn.SArr hx a := by
  funext p
  obtain ⟨i, j, rfl⟩ : ∃ i j, p = ix2 i j := ⟨p 0, p 1, eq_ix2 p⟩
  show refAff hx (ix2 i j) * refMask a (ix2 i j) + refEye (ix2 i j) = Cert.Gcn.S hx a i j
  rw [refAff_apply, refMask_apply, refEye_apply]
  rfl

/-! ## The row factors -/

/-- The inverse square roots of the row sums of the affinity matrix. -/
def refD (hx : FVec Ideal S8192x256 .f32) (a : FVec Ideal S8192x8192 .f32) : FVec Ideal S8192 .f32 :=
  Host.rsqrt (F := Ideal) (Host.reduceAdd (F := Ideal) (refS hx a) (constant (F := Ideal) S_ .f32 0x00000000#32)
    reducesTo_S8192x8192_S8192_d1 h_S_)

/-- The host's sum over the second axis of a matrix, read at row i: the initial value plus the sum over the row. -/
theorem hostRowSum_apply {m n : ℕ} (x : (⟨2, ![m, n]⟩ : Shape).Idx → EReal) (init : EReal)
    (h' : (⟨2, ![m, n]⟩ : Shape).ReducesTo [1] ⟨1, ![m]⟩) (h : (⟨2, ![m, n]⟩ : Shape).Reduces [1] ⟨1, ![m]⟩) (i : Fin m) :
    Ideal.hostReduceAdd h' x init (ix1 i) = init + ∑ k : Fin n, x (ix2 i k) := by
  refine (Ideal.hostReduceAdd_single h' h x init (ix1 i)).trans ?_
  show init + ∑ k : Fin n, x (h.lift (ix1 i) k) = _
  exact congrArg (init + ·) (Finset.sum_congr rfl fun k _ => congrArg x (Cert.Lib.Keepdims.lift_row h i k))

/-- An entry of the row factors is the inverse square root of the row sum. -/
theorem refD_apply (hx : FVec Ideal S8192x256 .f32) (a : FVec Ideal S8192x8192 .f32) (i : Fin 8192) :
    refD hx a (ix1 i) = Cert.Gcn.dinv hx a i := by
  have hR : S8192x8192.Reduces [1] S8192 := by decide
  show Ideal.rsqrt (Ideal.hostReduceAdd reducesTo_S8192x8192_S8192_d1 (refS hx a)
    (Ideal.ofBits .f32 0x00000000#32) (ix1 i)) = _
  rw [hostRowSum_apply _ _ _ hR, Ideal.ofBits_zero_f32, zero_add, refS_eq]
  rfl

/-! ## Rows and columns spread over a matrix -/

/-- A vector [n] broadcast along axis 1 into a row [1, n] reads, at (u, q), the vector at q. -/
theorem broadcastInDim_b_1b_apply {α : Type} {n : ℕ} (x : (⟨1, ![n]⟩ : Shape).Idx → α)
    (h : (⟨1, ![n]⟩ : Shape).BroadcastsInDim ⟨2, ![1, n]⟩ ![1]) (u : Fin 1) (q : Fin n) :
    broadcastInDim ⟨2, ![1, n]⟩ ![1] h x (ix2 u q) = x (ix1 q) := by
  refine broadcastInDim_apply ![1] h x (ix2 u q) (ix1 q) ?_
  intro ax
  match ax with
  | ⟨0, _⟩ =>
    show q.val = if n = 1 then 0 else q.val
    split
    · have := q.isLt; omega
    · rfl

/-- A row [1, n] broadcast along both axes into [m, n] reads, at (p, q), the row at (0, q). -/
theorem broadcastInDim_1b_ab_apply {α : Type} {m n : ℕ} (v : (⟨2, ![1, n]⟩ : Shape).Idx → α)
    (h : (⟨2, ![1, n]⟩ : Shape).BroadcastsInDim ⟨2, ![m, n]⟩ ![0, 1]) (p : Fin m) (q : Fin n) :
    broadcastInDim ⟨2, ![m, n]⟩ ![0, 1] h v (ix2 p q) = v (ix2 (0 : Fin 1) q) := by
  refine broadcastInDim_apply ![0, 1] h v (ix2 p q) (ix2 (0 : Fin 1) q) ?_
  intro ax
  match ax with
  | ⟨0, _⟩ =>
    show 0 = if (1 : ℕ) = 1 then 0 else p.val
    rw [if_pos rfl]
  | ⟨1, _⟩ =>
    show q.val = if n = 1 then 0 else q.val
    split
    · have := q.isLt; omega
    · rfl

/-! ## The normalised matrix and the output -/

/-- The affinity matrix scaled by the row factor on the left and the column factor on the right. -/
def refAhat (hx : FVec Ideal S8192x256 .f32) (a : FVec Ideal S8192x8192 .f32) : FVec Ideal S8192x8192 .f32 :=
  mulf (F := Ideal)
    (mulf (F := Ideal)
      (broadcastInDim S8192x8192 ![0, 1] bcast_S8192x1_S8192x8192_0_1
        (broadcastInDim S8192x1 ![0] bcast_S8192_S8192x1_0 (refD hx a)))
      (refS hx a))
    (broadcastInDim S8192x8192 ![0, 1] bcast_S1x8192_S8192x8192_0_1
      (broadcastInDim S1x8192 ![1] bcast_S8192_S1x8192_1 (refD hx a)))

/-- The normalised matrix times the projected features. -/
def refZ (hx : FVec Ideal S8192x256 .f32) (a : FVec Ideal S8192x8192 .f32) (hw : FVec Ideal S8192x128 .f32) :
    FVec Ideal S8192x128 .f32 :=
  Host.dotGeneral (F := Ideal) dot_S8192x8192_S8192x128_S8192x128_1_0_0_1_n_n none (refAhat hx a) hw

/-- The leaky rectifier as the reference writes it: compare with the zero splat, multiply by the slope splat, select. -/
def refLeaky (z : FVec Ideal S8192x128 .f32) : FVec Ideal S8192x128 .f32 :=
  select
    (cmpf (F := Ideal) .oge z (broadcastInDim S8192x128 ![] bcast_S_S8192x128 (constant (F := Ideal) S_ .f32 0x00000000#32)))
    z
    (mulf (F := Ideal)
      (broadcastInDim S8192x128 ![] bcast_S_S8192x128 (id (constant (F := Ideal) S_ .f32 0x3C23D70A#32))) z)

/-- The reference's output. -/
def refOut (hx : FVec Ideal S8192x256 .f32) (a : FVec Ideal S8192x8192 .f32) (hw : FVec Ideal S8192x128 .f32) :
    FVec Ideal S8192x128 .f32 :=
  refLeaky (refZ hx a hw)

/-- An entry of the normalised matrix: row factor times affinity entry times column factor. -/
theorem refAhat_apply (hx : FVec Ideal S8192x256 .f32) (a : FVec Ideal S8192x8192 .f32) (i j : Fin 8192) :
    refAhat hx a (ix2 i j) = (Cert.Gcn.dinv hx a i * Cert.Gcn.S hx a i j) * Cert.Gcn.dinv hx a j := by
  show (broadcastInDim S8192x8192 ![0, 1] bcast_S8192x1_S8192x8192_0_1
        (broadcastInDim S8192x1 ![0] bcast_S8192_S8192x1_0 (refD hx a)) (ix2 i j) * refS hx a (ix2 i j))
      * broadcastInDim S8192x8192 ![0, 1] bcast_S1x8192_S8192x8192_0_1
        (broadcastInDim S1x8192 ![1] bcast_S8192_S1x8192_1 (refD hx a)) (ix2 i j) = _
  rw [Cert.LibHostColumn.broadcastInDim_a1_ab_apply, Cert.LibColumn.broadcastInDim_a_a1_apply,
    broadcastInDim_1b_ab_apply, broadcastInDim_b_1b_apply, refD_apply, refD_apply, refS_eq]
  rfl

/-- The comparison, the product with the slope and the selection are the rectifier that tests "non-negative". -/
theorem refLeaky_apply (z : FVec Ideal S8192x128 .f32) (p : S8192x128.Idx) :
    refLeaky z p = Cert.Gcn.lrR (z p) := by
  show Scalar.select (Ideal.cmp .oge (z p) Cert.Gcn.cZero) (z p) (Cert.Gcn.cSlope * z p) = _
  unfold Cert.Gcn.lrR Scalar.select Ideal.cmp
  by_cases h : Cert.Gcn.cZero ≤ z p
  · simp [h]
  · simp [h]

/-- The reference's output is the output with both factors inside the contraction. -/
theorem refOut_eq (hx : FVec Ideal S8192x256 .f32) (a : FVec Ideal S8192x8192 .f32) (hw : FVec Ideal S8192x128 .f32) :
    refOut hx a hw = Cert.Gcn.outR hx a hw := by
  funext p
  obtain ⟨i, k, rfl⟩ : ∃ i k, p = ix2 i k := ⟨p 0, p 1, eq_ix2 p⟩
  unfold refOut
  rw [refLeaky_apply]
  unfold Cert.Gcn.outR
  refine congrArg Cert.Gcn.lrR ?_
  unfold refZ
  refine (Cert.KernelIdeal.Hand.dotGeneral_plain_apply' dot_S8192x8192_S8192x128_S8192x128_1_0_0_1_n_n rfl none
    (refAhat hx a) hw (ix2 i k)).trans ?_
  refine Finset.sum_congr rfl fun j _ => ?_
  show refAhat hx a (ix2 i j) * hw (ix2 j k) = _
  rw [refAhat_apply]

end Cert.ReferenceIdeal.Hand

end
-- ==== Proof.RefRead.lean ====
/-
  The reference's results read back. The fold of the reference's ninety-six operations is the fold of the second
  forty-eight over the fold of the first forty-eight. The first half computes the projected features `main_v22` (and
  `main_v18`, which the second projection reads); they are carried as opaque arrays. Over any contents `V` the second
  half's fold at the affinity matrix `main_v43` is the composed term `refS` of `V` at `main_v22` and at the adjacency
  argument, and at the output `main_v57` the composed term `refOut` of those two and of the second projection
  `main_v55`: each operation's result rewritten at its own buffer, the terms then equal by unfolding the
  definitions. With the entry-by-entry readings of `refS` and `refOut` these are the affinity matrix `Cert.Gcn.SArr`
  and the output `Cert.Gcn.outR`.
-/
import proofs.«126049_j24678882083163_1_alg».proof.Proof.RefRun
import proofs.«126049_j24678882083163_1_alg».proof.Proof.RefMath

noncomputable section

namespace Cert.ReferenceIdeal.Hand

open Cert.ReferenceIdeal Cert.ReferenceIdeal.Gen Idealize.ShloMosaic Idealize.ShloMosaic.TcCoe Idealize.SL.Sem Idealize.ShloMosaic.StableHlo

/-- The fold over a concatenation is the fold over the second list, from the fold over the first. -/
theorem after_split {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_split l₁ l₂]

/-- The whole fold is the second half's over the first half's. -/
theorem after_ops (W : Valuation τ sig (Elt Ideal)) : after (ops (F := Ideal)) W = after opsB (after opsA W) :=
  after_split opsA opsB W

/-- No operation of the second half writes the projected features. -/
theorem opsB_keeps_v22 (V : Valuation τ sig (Elt Ideal)) :
    after (opsB (F := Ideal)) V (main_v22 : DevRef τ sig) = V (main_v22 : DevRef τ sig) :=
  after_of_forall_not_mem (b := Proc.devRef .tc main_v22) _ _ (List.forall_iff_forall_mem.mp (by
    simp only [opsB, List.Forall, nullary_writes, unary_writes, binary_writes, ternary_writes, Finset.mem_singleton]
    repeat' apply And.intro
    all_goals exact devRef_ne_of_ne (by decide)))

/-- No operation of the first half writes the adjacency argument. -/
theorem opsA_keeps_arg1 (V : Valuation τ sig (Elt Ideal)) :
    after (opsA (F := Ideal)) V (main_arg1 : DevRef τ sig) = V (main_arg1 : DevRef τ sig) :=
  after_of_forall_not_mem (b := Proc.devRef .tc main_arg1) _ _ (List.forall_iff_forall_mem.mp (by
    simp only [opsA, List.Forall, nullary_writes, unary_writes, binary_writes, ternary_writes, Finset.mem_singleton]
    repeat' apply And.intro
    all_goals exact devRef_ne_of_ne (by decide)))

/-- Over any contents, the second half leaves at `main_v43` the composed affinity matrix of the contents at
    `main_v22` and at the adjacency argument. -/
theorem opsB_v43 (V : Valuation τ sig (Elt Ideal)) :
    after (opsB (F := Ideal)) V (main_v43 : DevRef τ sig)
      = refS (V (main_v22 : DevRef τ sig)) (V (main_arg1 : DevRef τ sig)) := by
  after_results_simp
  rfl

/-- The reference's affinity matrix is the affinity matrix of the projected features and the adjacency argument. -/
theorem ref_S (W : Valuation τ sig (Elt Ideal)) :
    after (ops (F := Ideal)) W (main_v43 : DevRef τ sig)
      = Cert.Gcn.SArr (after (ops (F := Ideal)) W (main_v22 : DevRef τ sig)) (W (main_arg1 : DevRef τ sig)) := by
  rw [after_ops, opsB_v43, opsB_keeps_v22, opsA_keeps_arg1, refS_eq]

/-- Over any contents, the second half leaves at `main_v57` the composed output of the contents at `main_v22`, at the
    adjacency argument, and of what it leaves at the second projection `main_v55`. -/
theorem opsB_v57 (V : Valuation τ sig (Elt Ideal)) :
    after (opsB (F := Ideal)) V (main_v57 : DevRef τ sig)
      = refOut (V (main_v22 : DevRef τ sig)) (V (main_arg1 : DevRef τ sig)) (after (opsB (F := Ideal)) V (main_v55 : DevRef τ sig)) := by
  after_results_simp
  rfl

/-- The reference's output is the output with both factors inside the contraction, of the projected features, the
    adjacency argument and the second projection. -/
theorem ref_out (W : Valuation τ sig (Elt Ideal)) :
    after (ops (F := Ideal)) W (main_v57 : DevRef τ sig)
      = Cert.Gcn.outR (after (ops (F := Ideal)) W (main_v22 : DevRef τ sig)) (W (main_arg1 : DevRef τ sig))
          (after (ops (F := Ideal)) W (main_v55 : DevRef τ sig)) := by
  rw [after_ops, opsB_v57, opsB_keeps_v22, opsA_keeps_arg1, refOut_eq]

end Cert.ReferenceIdeal.Hand

end
-- ==== Proof.KRun.lean ====
/-
  The idealized kernel program's run with its two results named: every weakly fair execution of @main ends with the
  propagated output and the affinity array at the contents the last segment boundary holds for their buffers, and
  the arguments as launched. The boundary contents are the fold through @main's segments: host stretches by their
  operations, each pallas_call's arrays at what its write-backs leave.
-/
import proofs.«126049_j24678882083163_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the two result buffers read at the last boundary's contents. -/
theorem run_values : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_v28_0) = W6 m ρ c (Proc.devRef .tc main_v28_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       h c _ (mem_uc main_v28_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Hand

end
-- ==== Proof.KHost.lean ====
/-
  The idealized kernel program's two results as functions of what its host prefix computes.

  Between the launch and the first pallas_call the host computes the projected features (`hxK`, the first
  pallas_call's resident operand) and the second projection (`hwK`); the adjacency argument is untouched. The first
  pallas_call leaves the affinity array and its row sums; the host stretch between the calls takes the inverse square
  root of the row sums and scales the second projection's rows by it; the second pallas_call propagates. Given what
  each pallas_call's arrays hold after its run (the hypotheses `h2`, `h3`, `h13`, proved separately for any
  region-entry contents), the results are `Gcn.SArr` and `Gcn.outK` of those three arrays.
-/
import proofs.«126049_j24678882083163_1_alg».proof.Proof.Gen.KernelIdeal.Frame
import proofs.«126049_j24678882083163_1_alg».proof.Proof.Spec
import proofs.«126049_j24678882083163_1_alg».proof.Proof.LibHostColumn
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.StableHlo Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The projected features, as the first pallas_call finds them. -/
def hxK (c : Dev nD) : Cert.Gcn.SNT.Idx → EReal := V3 m ρ c main_v27
/-- The second projection, as the host leaves it before the first pallas_call. -/
def hwK (c : Dev nD) : Cert.Gcn.SND.Idx → EReal := W3 m ρ c (Proc.devRef .tc main_v26)

/-! ## The host stretch between the two pallas_calls -/

theorem v29_eq (c : Dev nD) :
    W5 m ρ c (Proc.devRef .tc main_v29)
      = Host.rsqrt (F := Ideal) (show FVec Ideal S8192x1 .f32 from W4 m ρ c (Proc.devRef .tc main_v28_1)) := by
  show StableHlo.after hostOps1 (W4 m ρ c) (Proc.devRef .tc main_v29) = _
  after_results

theorem v32_eq (c : Dev nD) :
    W5 m ρ c (Proc.devRef .tc main_v32)
      = truncf (F := Ideal) .bf16 (mulf (F := Ideal) (W4 m ρ c (Proc.devRef .tc main_v26))
          (broadcastInDim S8192x128 ![0, 1] Facts₀.bcast_S8192x1_S8192x128_0_1
            (Host.rsqrt (F := Ideal) (W4 m ρ c (Proc.devRef .tc main_v28_1))))) Facts₀.bitsLt_bf16_f32 := by
  show StableHlo.after hostOps1 (W4 m ρ c) (Proc.devRef .tc main_v32) = _
  after_results

theorem v28_0_eq (c : Dev nD) :
    W5 m ρ c (Proc.devRef .tc main_v28_0) = W4 m ρ c (Proc.devRef .tc main_v28_0) := by
  show StableHlo.after hostOps1 (W4 m ρ c) (Proc.devRef .tc main_v28_0) = _
  after_results

/-! ## The adjacency argument reaches the first pallas_call as launched -/

theorem V3_arg1 (c : Dev nD) : V3 m ρ c main_arg1 = m ((c : Thread nD τ).loc main_arg1) := by
  show StableHlo.after hostOps0_2 (StableHlo.after hostOps0_1 (StableHlo.after hostOps0 (W0 m ρ c))) (Proc.devRef .tc main_arg1) = _
  after_results

/-! ## The two results -/

section Results

variable
  (h2 : ∀ (V : (c : Dev nD) → (b : Ref sig .tc) → Buf (Elt Ideal) ((c : Thread nD τ).loc b)) (c : Dev nD),
      (dat0 (F := Ideal) V c).arrAt 2 cfg0.N = Cert.Gcn.SArr (V c main_v27) (V c main_arg1))
  (h3 : ∀ (V : (c : Dev nD) → (b : Ref sig .tc) → Buf (Elt Ideal) ((c : Thread nD τ).loc b)) (c : Dev nD),
      (dat0 (F := Ideal) V c).arrAt 3 cfg0.N = Cert.Gcn.rowsumCol (V c main_v27) (V c main_arg1))
  (h13 : ∀ (V : (c : Dev nD) → (b : Ref sig .tc) → Buf (Elt Ideal) ((c : Thread nD τ).loc b)) (c : Dev nD),
      (dat1 (F := Ideal) V c).arrAt 3 cfg1.N = Cert.Gcn.propK (V c main_v28_0) (V c main_v32) (V c main_v29))

include h2 in
/-- The affinity array the first pallas_call leaves. -/
theorem W4_S (c : Dev nD) :
    W4 m ρ c (Proc.devRef .tc main_v28_0) = Cert.Gcn.SArr (hxK m ρ c) (m ((c : Thread nD τ).loc main_arg1)) := by
  rw [show W4 m ρ c (Proc.devRef .tc main_v28_0) = (dat0 (V3 m ρ) c).arrAt 2 cfg0.N from W4_arr m ρ c 2, h2, V3_arg1]
  rfl

include h3 in
/-- The row sums the first pallas_call leaves. -/
theorem W4_rowsum (c : Dev nD) :
    W4 m ρ c (Proc.devRef .tc main_v28_1) = Cert.Gcn.rowsumCol (hxK m ρ c) (m ((c : Thread nD τ).loc main_arg1)) := by
  rw [show W4 m ρ c (Proc.devRef .tc main_v28_1) = (dat0 (V3 m ρ) c).arrAt 3 cfg0.N from W4_arr m ρ c 3, h3, V3_arg1]
  rfl

include h3 in
/-- The column of row factors the second pallas_call is given: the inverse square roots of the row sums. -/
theorem V5_d (c : Dev nD) :
    V5 m ρ c main_v29 = fun p => Cert.Gcn.dinv (hxK m ρ c) (m ((c : Thread nD τ).loc main_arg1)) (p 0) := by
  show W5 m ρ c (Proc.devRef .tc main_v29) = _
  rw [v29_eq]
  funext p
  show Ideal.rsqrt ((W4 m ρ c (Proc.devRef .tc main_v28_1) : Cert.Gcn.SN1.Idx → EReal) p) = _
  rw [W4_rowsum m ρ h3 c]
  rfl

include h3 in
/-- The scaled features the second pallas_call is given: each row of the second projection times its row factor. -/
theorem V5_hws (c : Dev nD) :
    V5 m ρ c main_v32
      = fun p => hwK m ρ c p * Cert.Gcn.dinv (hxK m ρ c) (m ((c : Thread nD τ).loc main_arg1)) (p 0) := by
  show W5 m ρ c (Proc.devRef .tc main_v32) = _
  rw [v32_eq]
  funext p
  obtain ⟨j, k, rfl⟩ : ∃ (j : Fin 8192) (k : Fin 128), p = ix2 j k := ⟨p 0, p 1, eq_ix2 p⟩
  rw [truncf_apply, mulf_apply, Cert.LibHostColumn.broadcastInDim_a1_ab_apply]
  show (show Cert.Gcn.SND.Idx → EReal from W4 m ρ c (Proc.devRef .tc main_v26)) (ix2 j k)
      * Ideal.rsqrt ((show Cert.Gcn.SN1.Idx → EReal from W4 m ρ c (Proc.devRef .tc main_v28_1)) (ix2 j (0 : Fin 1))) = _
  rw [W4_rowsum m ρ h3 c, W4_of_ne m ρ c main_v26 (by decide)]
  rfl

include h2 in
/-- The affinity array as the second pallas_call finds it. -/
theorem V5_S (c : Dev nD) :
    V5 m ρ c main_v28_0 = Cert.Gcn.SArr (hxK m ρ c) (m ((c : Thread nD τ).loc main_arg1)) := by
  show W5 m ρ c (Proc.devRef .tc main_v28_0) = _
  rw [v28_0_eq, W4_S m ρ h2 c]

include h2 in
/-- The program's second result: the affinity array. -/
theorem W6_S (c : Dev nD) :
    W6 m ρ c (Proc.devRef .tc main_v28_0) = Cert.Gcn.SArr (hxK m ρ c) (m ((c : Thread nD τ).loc main_arg1)) := by
  rw [show W6 m ρ c (Proc.devRef .tc main_v28_0) = (dat1 (V5 m ρ) c).arrAt 0 cfg1.N from W6_arr m ρ c 0,
    ((dat1 (V5 m ρ) c).arrAt_in 0 rfl _).trans (A_eq1 (V5 m ρ) c 0)]
  exact V5_S m ρ h2 c

include h2 h3 h13 in
/-- The program's first result: one propagation step from the affinity array, the scaled features and the row factors. -/
theorem W6_out (c : Dev nD) :
    W6 m ρ c (Proc.devRef .tc main_v33)
      = Cert.Gcn.propK (Cert.Gcn.SArr (hxK m ρ c) (m ((c : Thread nD τ).loc main_arg1)))
          (fun p => hwK m ρ c p * Cert.Gcn.dinv (hxK m ρ c) (m ((c : Thread nD τ).loc main_arg1)) (p 0))
          (fun p => Cert.Gcn.dinv (hxK m ρ c) (m ((c : Thread nD τ).loc main_arg1)) (p 0)) := by
  rw [show W6 m ρ c (Proc.devRef .tc main_v33) = (dat1 (V5 m ρ) c).arrAt 3 cfg1.N from W6_arr m ρ c 3, h13,
    V5_S m ρ h2 c, V5_hws m ρ h3 c, V5_d m ρ h3 c]
  rfl

end Results

end Cert.KernelIdeal.Hand

end
-- ==== Proof.R0Pieces.lean ====
/-
  The affinity body's stores, read back as values (at any float instance).

  At a grid point (i₀, i₁) the body loads two row blocks of the whole feature array — 512 rows from row 512·i₀ and
  2048 rows from row 2048·i₁ — and the adjacency tile; it stores the affinity tile (one covering store), and it
  stores into the row-sum block the block's previous contents plus the tile's row sums — the previous contents
  being the zero block just stored when i₁ = 0, and what the point before left otherwise.
-/
import proofs.«126049_j24678882083163_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

theorem hz : (![0, 0] : Fin 2 → Nat) = fun _ => 0 := funext fun a => by fin_cases a <;> rfl

/-- The 512 feature rows the body loads first: rows 512·i₀ … of the whole feature array. -/
abbrev rowsL (i : grid0.Coords) (x0 : Vec F S8192x256 .bf16) : Vec F S512x256 .bf16 :=
  View.ld x0 (Rect.unit (k0_off1 i) S512x256.size (k0_off1_inb i))

/-- The 2048 feature rows the body loads second: rows 2048·i₁ … of the whole feature array. -/
abbrev rowsR (i : grid0.Coords) (x0 : Vec F S8192x256 .bf16) : Vec F S2048x256 .bf16 :=
  View.ld x0 (Rect.unit (k0_off2 i) S2048x256.size (k0_off2_inb i))

/-- The affinity tile when i₁ = 0: the one covering store's payload. -/
theorem out_A_2 (c : Dev nD) (i : grid0.Coords) (a2 : Memref sig .tc .vmem S8192x256 .bf16) (h2 : a2.IsWhole)
    (a3 : Memref sig .tc .vmem S512x2048 .f32) (h3 : a3.IsWhole) (a4 : Memref sig .tc .vmem S512x2048 .f32) (h4 : a4.IsWhole)
    (a5 : Memref sig .tc .vmem S512x1 .f32) (h5 : a5.IsWhole) (hc : cond0_0 i)
    (x0 : Vec F S8192x256 .bf16) (x1 : Vec F S512x2048 .f32) :
    out0_A_2 c i a2 h2 a3 h3 a4 h4 a5 h5 hc x0 x1 = k0_pay3 i (rowsL i x0) (rowsR i x0) x1 := by
  unfold out0_A_2
  rw [View.read_writes_eq_canon _ _ _ (cover0_A_2 c i a2 h2 a3 h3 a4 h4 a5 h5 hc x0 x1)]
  unfold kernelRun0_A
  dsimp only
  try sl_unfold_words
  rw [View.canon_unit_zero hz]
  simp only [View.readAt_eq_ld, h2.read_unread, h3.read_unread, View.ld_unit_zero (S := S512x2048) hz]
  rfl

/-- The affinity tile when i₁ ≠ 0: the same payload. -/
theorem out_B_2 (c : Dev nD) (i : grid0.Coords) (a2 : Memref sig .tc .vmem S8192x256 .bf16) (h2 : a2.IsWhole)
    (a3 : Memref sig .tc .vmem S512x2048 .f32) (h3 : a3.IsWhole) (a4 : Memref sig .tc .vmem S512x2048 .f32) (h4 : a4.IsWhole)
    (a5 : Memref sig .tc .vmem S512x1 .f32) (h5 : a5.IsWhole) (hc : ¬cond0_0 i)
    (x0 : Vec F S8192x256 .bf16) (x1 : Vec F S512x2048 .f32) (xo3 : Vec F S512x1 .f32) :
    out0_B_2 c i a2 h2 a3 h3 a4 h4 a5 h5 hc x0 x1 xo3 = k0_pay3 i (rowsL i x0) (rowsR i x0) x1 := by
  unfold out0_B_2
  rw [View.read_writes_eq_canon _ _ _ (cover0_B_2 c i a2 h2 a3 h3 a4 h4 a5 h5 hc x0 x1 xo3)]
  unfold kernelRun0_B
  dsimp only
  try sl_unfold_words
  rw [View.canon_unit_zero hz]
  simp only [View.readAt_eq_ld, h2.read_unread, h3.read_unread, View.ld_unit_zero (S := S512x2048) hz]
  rfl

/-- The row-sum block when i₁ = 0: the zero block is stored first and read back, then the tile's row sums are added. -/
theorem out_A_3 (c : Dev nD) (i : grid0.Coords) (a2 : Memref sig .tc .vmem S8192x256 .bf16) (h2 : a2.IsWhole)
    (a3 : Memref sig .tc .vmem S512x2048 .f32) (h3 : a3.IsWhole) (a4 : Memref sig .tc .vmem S512x2048 .f32) (h4 : a4.IsWhole)
    (a5 : Memref sig .tc .vmem S512x1 .f32) (h5 : a5.IsWhole) (hc : cond0_0 i)
    (x0 : Vec F S8192x256 .bf16) (x1 : Vec F S512x2048 .f32) :
    out0_A_3 c i a2 h2 a3 h3 a4 h4 a5 h5 hc x0 x1
      = k0_pay1 (k0_pay4 (k0_pay2 (F := F))) (k0_pay5 i (rowsL i x0) (rowsR i x0) x1) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S512x1) hz, View.readCov_unit_zero (S := S512x1) _ hz]
  simp only [View.readAt_eq_ld, h2.read_unread, h3.read_unread, View.ld_unit_zero (S := S512x2048) hz]
  rfl

/-- The row-sum block when i₁ ≠ 0: what the point before left, plus the tile's row sums. -/
theorem out_B_3 (c : Dev nD) (i : grid0.Coords) (a2 : Memref sig .tc .vmem S8192x256 .bf16) (h2 : a2.IsWhole)
    (a3 : Memref sig .tc .vmem S512x2048 .f32) (h3 : a3.IsWhole) (a4 : Memref sig .tc .vmem S512x2048 .f32) (h4 : a4.IsWhole)
    (a5 : Memref sig .tc .vmem S512x1 .f32) (h5 : a5.IsWhole) (hc : ¬cond0_0 i)
    (x0 : Vec F S8192x256 .bf16) (x1 : Vec F S512x2048 .f32) (xo3 : Vec F S512x1 .f32) :
    out0_B_3 c i a2 h2 a3 h3 a4 h4 a5 h5 hc x0 x1 xo3
      = k0_pay1 (k0_pay4 xo3) (k0_pay5 i (rowsL i x0) (rowsR i x0) x1) := by
  unfold out0_B_3
  rw [View.read_writes_eq_canon _ _ _ (cover0_B_3 c i a2 h2 a3 h3 a4 h4 a5 h5 hc x0 x1 xo3)]
  unfold kernelRun0_B
  dsimp only
  try sl_unfold_words
  rw [View.canon_unit_zero hz]
  simp only [View.readAt_eq_ld, h2.read_unread, h3.read_unread, h5.read_unread, View.ld_unit_zero (S := S512x2048) hz,
    View.ld_unit_zero (S := S512x1) hz]
  rfl

end Cert.KernelIdeal.R0

end
-- ==== Proof.Pay.lean ====
/-
  The two kernel bodies' arithmetic read at one entry, at the ideal instance.

  The affinity body: the tile entry (r, q) at grid point (i₀, i₁) is the floored logistic of the inner product of
  row r of the first feature block with row q of the second, times the ceiling of the scaled adjacency entry, plus one
  exactly when the global row 512·i₀ + r is the global column 2048·i₁ + q; the row-sum piece is the sum of the tile's
  row. The propagation body: the accumulator plus the tile's contraction with the scaled features; and at the last
  column tile the accumulator times the row factor, rectified.
-/
import proofs.«126049_j24678882083163_1_alg».proof.Proof.Gen.KernelIdeal.Skeleton
import proofs.«126049_j24678882083163_1_alg».proof.Proof.Spec
import proofs.«126049_j24678882083163_1_alg».proof.Proof.LibKeepdims
import proofs.«126049_j24678882083163_1_alg».proof.Proof.LibMatmulAt
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Gcn

/-! ## Words and bits -/

/-- A select on the bit of "strictly greater" is the `if` on the order. -/
theorem select_ogt {α : Type} (x y : EReal) (a b : α) :
    Scalar.select (Ideal.cmp .ogt x y) a b = if y < x then a else b := by
  show Scalar.select (BitVec.ofBool (decide (y < x))) a b = _
  by_cases h : y < x
  · rw [if_pos h, decide_eq_true h]; exact select_one a b
  · rw [if_neg h, decide_eq_false h]; exact select_zero a b

/-- A select on a decided bit written as an `if` is the `if`. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- A coordinate scaled and offset on 32-bit words is the word of the scaled and offset natural number (both sides are
    the number modulo 2³²). -/
theorem scaled_word (a c r : ℕ) :
    IntOp.addi (Scalar.muli (BitVec.ofNat 32 a) (BitVec.ofNat 32 c)) (BitVec.ofNat 32 r) = BitVec.ofNat 32 (a * c + r) := by
  apply BitVec.eq_of_toNat_eq
  show (BitVec.ofNat 32 a * BitVec.ofNat 32 c + BitVec.ofNat 32 r).toNat = _
  simp only [BitVec.toNat_add, BitVec.toNat_mul, BitVec.toNat_ofNat, Nat.add_mod, Nat.mul_mod, Nat.mod_mod]

/-- Two natural numbers below 2³² are equal exactly when their 32-bit words are. -/
theorem cmpi_eq_ofNat (m n : ℕ) (hm : m < 2 ^ 32) (hn : n < 2 ^ 32) :
    IntOp.cmpi .eq (BitVec.ofNat 32 m) (BitVec.ofNat 32 n) = if m = n then 1#1 else 0#1 := by
  show BitVec.ofBool (BitVec.ofNat 32 m == BitVec.ofNat 32 n) = _
  by_cases h : m = n
  · rw [if_pos h, h, beq_self_eq_true]; rfl
  · rw [if_neg h]
    have hne : (BitVec.ofNat 32 m == BitVec.ofNat 32 n) = false := by
      rw [beq_eq_false_iff_ne]
      intro hc
      apply h
      have := congrArg BitVec.toNat hc
      simp only [BitVec.toNat_ofNat] at this
      rw [Nat.mod_eq_of_lt hm, Nat.mod_eq_of_lt hn] at this
      exact this
    rw [hne]; rfl

/-- The comparison of a tile entry's global row 512·a + r with its global column 2048·b + q, computed on 32-bit words:
    with a < 16, b < 4, r < 512 and q < 2048 both numbers are below 2³², so the words are equal exactly when the
    numbers are. -/
theorem eyeWord (a b r q : ℕ) (ha : a < 16) (hb : b < 4) (hr : r < 512) (hq : q < 2048) :
    IntOp.cmpi .eq (IntOp.addi (Scalar.muli (BitVec.ofNat 32 a) 512#32) (BitVec.ofNat 32 r))
        (IntOp.addi (Scalar.muli (BitVec.ofNat 32 b) 2048#32) (BitVec.ofNat 32 q))
      = if a * 512 + r = b * 2048 + q then 1#1 else 0#1 := by
  rw [scaled_word a 512 r, scaled_word b 2048 q, cmpi_eq_ofNat _ _ (by omega) (by omega)]

/-! ## The affinity body -/

/-- The first feature block times the transposed second block, accumulated into zero: entry (r, q) is the inner product
    of row r of the first block with row q of the second. -/
theorem gram_apply (v8 : Vec Ideal S512x256 .bf16) (v11 : Vec Ideal S2048x256 .bf16) (r : Fin 512) (q : Fin 2048) :
    matmul (F := Ideal) (φ₁ := .bf16) (φ₂ := .bf16) dot_S512x256_S256x2048_S512x2048_1_0_0_1_n_n none v8
        (transpose S256x2048 [1, 0] v11 Facts₀.transposes_S2048x256_p1_0_S256x2048) (constant S512x2048 .f32 0x00000000#32) (ix2 r q)
      = ∑ k : Fin 256, v8 (ix2 r k) * v11 (ix2 q k) := by
  rw [Cert.KernelIdeal.Hand.matmul_zero_plain_apply (M := 512) (K := 256) (N := 2048) dot_S512x256_S256x2048_S512x2048_1_0_0_1_n_n rfl]
  refine Finset.sum_congr rfl fun k _ => ?_
  show v8 (ix2 r k) * transpose S256x2048 [1, 0] v11 Facts₀.transposes_S2048x256_p1_0_S256x2048 (ix2 k q) = _
  rw [transpose_apply [1, 0] v11 Facts₀.transposes_S2048x256_p1_0_S256x2048 (ix2 k q) (ix2 q k)
    (fun b => match b with | ⟨0, _⟩ => rfl | ⟨1, _⟩ => rfl)]

theorem pay3_apply (i : grid0.Coords) (v8 : Vec Ideal S512x256 .bf16) (v11 : Vec Ideal S2048x256 .bf16)
    (v18 : Vec Ideal S512x2048 .f32) (r : Fin 512) (q : Fin 2048) :
    k0_pay3 (F := Ideal) i v8 v11 v18 (ix2 r q)
      = max (Ideal.logistic (∑ k : Fin 256, v8 (ix2 r k) * v11 (ix2 q k))) cTenth
          * Ideal.liftRound Int.ceil (v18 (ix2 r q) * cTiny)
        + (if (i 0).val * 512 + r.val = (i 1).val * 2048 + q.val then cOne else cZero) := by
  have h0 : (i 0).val < 16 := (i 0).isLt
  have h1 : (i 1).val < 4 := (i 1).isLt
  unfold k0_pay3
  simp only [shapeCast_self]
  -- every pointwise operation read at the entry; what is left is the product, the two coordinate arrays and the select
  show max (Ideal.logistic (matmul (F := Ideal) dot_S512x256_S256x2048_S512x2048_1_0_0_1_n_n none v8
            (transpose S256x2048 [1, 0] v11 Facts₀.transposes_S2048x256_p1_0_S256x2048) (constant S512x2048 .f32 0x00000000#32) (ix2 r q)))
          (Ideal.ofBits .f32 0x3DCCCCCD#32)
        * Ideal.liftRound Int.ceil (v18 (ix2 r q) * Ideal.ofBits .f32 0x3727C5AC#32)
      + Scalar.select (IntOp.cmpi .eq
            (IntOp.addi (Scalar.muli (BitVec.ofNat 32 (i 0).val) 512#32) (iota .tc S512x2048 32 [0] Facts₀.iota_S512x2048_d0_w32 (ix2 r q)))
            (IntOp.addi (Scalar.muli (BitVec.ofNat 32 (i 1).val) 2048#32) (iota .tc S512x2048 32 [1] Facts₀.iota_S512x2048_d1_w32 (ix2 r q))))
          (Ideal.ofBits .f32 0x3F800000#32) (Ideal.ofBits .f32 0x00000000#32) = _
  rw [gram_apply, iota_single_apply, iota_single_apply]
  show _ + Scalar.select (IntOp.cmpi .eq
            (IntOp.addi (Scalar.muli (BitVec.ofNat 32 (i 0).val) 512#32) (BitVec.ofNat 32 r.val))
            (IntOp.addi (Scalar.muli (BitVec.ofNat 32 (i 1).val) 2048#32) (BitVec.ofNat 32 q.val))) _ _ = _
  rw [eyeWord _ _ _ _ h0 h1 r.isLt q.isLt, select_ite]
  rfl

theorem pay5_apply (i : grid0.Coords) (v8 : Vec Ideal S512x256 .bf16) (v11 : Vec Ideal S2048x256 .bf16)
    (v18 : Vec Ideal S512x2048 .f32) (r : Fin 512) :
    k0_pay5 (F := Ideal) i v8 v11 v18 (ix1 r) = ∑ q : Fin 2048, k0_pay3 (F := Ideal) i v8 v11 v18 (ix2 r q) := by
  unfold k0_pay5
  exact Cert.Lib.Keepdims.rowSum_apply _ _ _ _ _ r

theorem pay1_apply (v36 : FVec Ideal S512x1 .f32) (v37 : FVec Ideal S512 .f32) (r : Fin 512) :
    k0_pay1 (F := Ideal) v36 v37 (ix2 r 0) = v36 (ix2 r 0) + v37 (ix1 r) := by
  show v36 (ix2 r 0) + shapeCast S512x1 v37 Facts₀.shapeCasts_S512_S512x1 (ix2 r (0 : Fin 1)) = _
  rw [Cert.Lib.Keepdims.shapeCast_a_a1_apply]

theorem pay2_apply (p : S512x1.Idx) : k0_pay2 (F := Ideal) p = 0 := by
  show Ideal.ofBits .f32 0x00000000#32 = 0
  exact Ideal.ofBits_zero_f32

theorem pay4_apply (v35 : Vec Ideal S512x1 .f32) (p : S512x1.Idx) : k0_pay4 (F := Ideal) v35 p = v35 p := by
  unfold k0_pay4
  rw [shapeCast_self]

/-! ## The propagation body -/

theorem k1_pay1_apply (p : S512x128.Idx) : k1_pay1 (F := Ideal) p = 0 := by
  show Ideal.ofBits .f32 0x00000000#32 = 0
  exact Ideal.ofBits_zero_f32

theorem k1_pay2_apply (v6 : Vec Ideal S2048x128 .bf16) (v8 : Vec Ideal S512x2048 .f32) (v11 : Vec Ideal S512x128 .f32)
    (r : Fin 512) (k : Fin 128) :
    k1_pay2 (F := Ideal) v6 v8 v11 (ix2 r k) = v11 (ix2 r k) + ∑ q : Fin 2048, v8 (ix2 r q) * v6 (ix2 q k) := by
  unfold k1_pay2
  simp only [shapeCast_self]
  show v11 (ix2 r k) + matmul (F := Ideal) dot_S512x2048_S2048x128_S512x128_1_0_0_1_n_n none (truncf .bf16 v8 Facts₀.bitsLt_bf16_f32) v6
      (constant S512x128 .f32 0x00000000#32) (ix2 r k) = _
  rw [Cert.KernelIdeal.Hand.matmul_zero_plain_apply (M := 512) (K := 2048) (N := 128) dot_S512x2048_S2048x128_S512x128_1_0_0_1_n_n rfl]
  rfl

theorem k1_pay3_apply (v19 : Vec Ideal S512x128 .f32) (v21 : Vec Ideal S512x1 .f32) (r : Fin 512) (k : Fin 128) :
    k1_pay3 (F := Ideal) v19 v21 (ix2 r k) = lrK (v19 (ix2 r k) * v21 (ix2 r 0)) := by
  unfold k1_pay3
  simp only [shapeCast_self]
  show Scalar.select (Ideal.cmp .ogt (v19 (ix2 r k) * broadcastTo S512x128 v21 Facts₀.broadcasts_S512x1_S512x128 (ix2 r k)) (Ideal.ofBits .f32 0x00000000#32))
      (v19 (ix2 r k) * broadcastTo S512x128 v21 Facts₀.broadcasts_S512x1_S512x128 (ix2 r k))
      (Ideal.ofBits .f32 0x3C23D70A#32 * (v19 (ix2 r k) * broadcastTo S512x128 v21 Facts₀.broadcasts_S512x1_S512x128 (ix2 r k))) = _
  rw [Cert.Lib.Keepdims.broadcastTo_a1_ab_apply, select_ogt]
  rfl

end Cert.KernelIdeal.Pay

end
-- ==== Proof.R0Tile.lean ====
/-
  The affinity tile at an entry, at the ideal instance.

  At grid point (i₀, i₁) the tile's entry (r, q) is the affinity matrix's entry at row 512·i₀ + r and column
  2048·i₁ + q: the first load reads feature rows 512·i₀ …, the second rows 2048·i₁ …, the adjacency tile holds
  the adjacency array's entries of those rows and columns, and the "row equals column" test on the tile's global
  coordinates is the identity matrix's entry.
-/
import proofs.«126049_j24678882083163_1_alg».proof.Proof.R0Pieces
import proofs.«126049_j24678882083163_1_alg».proof.Proof.Pay
import proofs.«126049_j24678882083163_1_alg».proof.Proof.Spec
import Idealize.ShloMosaic.Lib.ValueIdx

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx Cert.Gcn
open scoped BigOperators

/-- The first load starts at row 512·i₀ (the 32-bit product does not wrap: i₀ < 16). -/
theorem off1_val (i : grid0.Coords) : k0_off1 i = ![512 * (i 0).val, 0] := by
  have h : (i 0).val < 16 := (i 0).isLt
  unfold k0_off1
  simp only [Scalar.muli, IntOp.muli, Scalar.indexCast, BitVec.toNat_mul, BitVec.toNat_ofNat]
  congr 1
  omega

/-- The second load starts at row 2048·i₁ (i₁ < 4). -/
theorem off2_val (i : grid0.Coords) : k0_off2 i = ![2048 * (i 1).val, 0] := by
  have h : (i 1).val < 4 := (i 1).isLt
  unfold k0_off2
  simp only [Scalar.muli, IntOp.muli, Scalar.indexCast, BitVec.toNat_mul, BitVec.toNat_ofNat]
  congr 1
  omega

/-- Row r of the first loaded block is row 512·i₀ + r of the feature array. -/
theorem rowsL_apply (i : grid0.Coords) (hx : Vec Ideal S8192x256 .bf16) (r : Fin 512) (k : Fin 256) (R : Fin 8192)
    (hR : R.val = 512 * (i 0).val + r.val) : rowsL i hx (ix2 r k) = hx (ix2 R k) := by
  show hx _ = hx _
  congr 1
  funext a
  apply Fin.ext
  match a with
  | ⟨0, _⟩ => show k0_off1 i 0 + 1 * r.val = R.val; rw [off1_val, hR]; show 512 * (i 0).val + 1 * r.val = _; omega
  | ⟨1, _⟩ => show k0_off1 i 1 + 1 * k.val = k.val; rw [off1_val]; show 0 + 1 * k.val = _; omega

/-- Row q of the second loaded block is row 2048·i₁ + q of the feature array. -/
theorem rowsR_apply (i : grid0.Coords) (hx : Vec Ideal S8192x256 .bf16) (q : Fin 2048) (k : Fin 256) (C : Fin 8192)
    (hC : C.val = 2048 * (i 1).val + q.val) : rowsR i hx (ix2 q k) = hx (ix2 C k) := by
  show hx _ = hx _
  congr 1
  funext a
  apply Fin.ext
  match a with
  | ⟨0, _⟩ => show k0_off2 i 0 + 1 * q.val = C.val; rw [off2_val, hC]; show 2048 * (i 1).val + 1 * q.val = _; omega
  | ⟨1, _⟩ => show k0_off2 i 1 + 1 * k.val = k.val; rw [off2_val]; show 0 + 1 * k.val = _; omega

/-- The tile's entry (r, q) at grid point (i₀, i₁) is the affinity matrix's entry (512·i₀ + r, 2048·i₁ + q), when the
    adjacency tile holds the adjacency array's entry there. -/
theorem tile_apply (i : grid0.Coords) (hx : Vec Ideal S8192x256 .bf16) (x1 : Vec Ideal S512x2048 .f32)
    (a : SNN.Idx → EReal) (r : Fin 512) (q : Fin 2048) (R C : Fin 8192)
    (hR : R.val = 512 * (i 0).val + r.val) (hC : C.val = 2048 * (i 1).val + q.val)
    (hx1 : x1 (ix2 r q) = a (ix2 R C)) :
    k0_pay3 (F := Ideal) i (rowsL i hx) (rowsR i hx) x1 (ix2 r q) = S hx a R C := by
  rw [Pay.pay3_apply]
  unfold S aff logit mask eye
  rw [hx1]
  have e : (∑ k : Fin 256, rowsL i hx (ix2 r k) * rowsR i hx (ix2 q k)) = ∑ k : Fin 256, hx (ix2 R k) * hx (ix2 C k) :=
    Finset.sum_congr rfl fun k _ => by rw [rowsL_apply i hx r k R hR, rowsR_apply i hx q k C hC]
  rw [e]
  have hc : ((i 0).val * 512 + r.val = (i 1).val * 2048 + q.val) ↔ R = C := by
    rw [Fin.ext_iff]; omega
  simp only [hc]

end Cert.KernelIdeal.R0

end
-- ==== Proof.R0Blk.lean ====
/-
  The affinity call's windows at a grid point, as parts of the arrays the call is entered with.

  Point t of the 16×4 grid has coordinates (t / 4, t % 4). The feature window is the whole feature array at every
  point; the adjacency window's block is rows 512·(t / 4) … and columns 2048·(t % 4) … of the adjacency array; the
  affinity output's block sits at the same place, and the row-sum output's block is rows 512·(t / 4) … of its column.
-/
import proofs.«126049_j24678882083163_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx

variable (V : (c : Dev nD) → (b : Ref sig .tc) → Buf (Elt Ideal) ((c : Thread nD τ).loc b))

/-- The grid coordinates of point t. -/
theorem coords_val : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The block indices of the four windows at point t. -/
theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem index3 : ∀ t : Fin cfg0.N, win0_3.index t 0 = t.val / 4 ∧ win0_3.index t 1 = 0 :=
  (by decide +kernel : ∀ t : Fin grid0.N, win0_3.index t 0 = t.val / 4 ∧ win0_3.index t 1 = 0)

/-- The feature window's block is the whole feature array. -/
theorem iblk_feat (c : Dev nD) (t : Fin cfg0.N) : (iblk0 V c 0 t : Vec Ideal S8192x256 .bf16) = V c main_v27 := by
  funext j
  unfold iblk0
  rw [View.read_apply]
  show V c main_v27 _ = V c main_v27 j
  congr 1
  funext a
  apply Fin.ext
  match a with
  | ⟨0, _⟩ => show win0_0.index t 0 * 8192 + 1 * (j 0).val = (j 0).val; rw [(index0 t).1]; omega
  | ⟨1, _⟩ => show win0_0.index t 1 * 256 + 1 * (j 1).val = (j 1).val; rw [(index0 t).2]; omega

/-- The adjacency window's block at point t, entry (r, q), is the adjacency array's entry
    (512·(t / 4) + r, 2048·(t % 4) + q). -/
theorem iblk_adj (c : Dev nD) (t : Fin cfg0.N) (r : Fin 512) (q : Fin 2048) (R C : Fin 8192)
    (hR : R.val = 512 * (t.val / 4) + r.val) (hC : C.val = 2048 * (t.val % 4) + q.val) :
    (iblk0 V c 1 t : Vec Ideal S512x2048 .f32) (ix2 r q) = (V c main_arg1 : S8192x8192.Idx → EReal) (ix2 R C) := by
  unfold iblk0
  rw [View.read_apply]
  show V c main_arg1 _ = V c main_arg1 _
  congr 1
  funext a
  apply Fin.ext
  match a with
  | ⟨0, _⟩ => show win0_1.index t 0 * 512 + 1 * r.val = R.val; rw [(index1 t).1, hR]; omega
  | ⟨1, _⟩ => show win0_1.index t 1 * 2048 + 1 * q.val = C.val; rw [(index1 t).2, hC]; omega

end Cert.KernelIdeal.R0

end
-- ==== Proof.R0Acc.lean ====
/-
  What the affinity call's two output buffers hold after each grid point, at the ideal instance.

  The affinity buffer after point t holds the tile of the affinity matrix at rows 512·(t / 4) … and columns
  2048·(t % 4) …. The row-sum buffer is zeroed at the first point of a row block (t % 4 = 0) and at every point the
  tile's row sums are added to it: after point t its entry r is the sum, over the column blocks 0 … t % 4, of the
  affinity matrix's row 512·(t / 4) + r summed over that column block — by induction on the point. Sums are taken in
  the extended reals, an additive commutative monoid; no finiteness is used.
-/
import proofs.«126049_j24678882083163_1_alg».proof.Proof.R0Tile
import proofs.«126049_j24678882083163_1_alg».proof.Proof.R0Blk

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx Cert.Gcn
open scoped BigOperators

/-- The affinity matrix's entry at natural-number coordinates (zero outside the matrix). -/
def Sn (hx : SNT.Idx → EReal) (a : SNN.Idx → EReal) (i j : ℕ) : EReal :=
  if h : i < 8192 ∧ j < 8192 then S hx a ⟨i, h.1⟩ ⟨j, h.2⟩ else 0

/-- Row i of the affinity matrix summed over column block s (columns 2048·s … 2048·s + 2047). -/
def blockSum (hx : SNT.Idx → EReal) (a : SNN.Idx → EReal) (i s : ℕ) : EReal :=
  ∑ q : Fin 2048, Sn hx a i (2048 * s + q.val)

/-- The tile's entry, for a first window that holds the whole feature array. -/
theorem tile_at (i : grid0.Coords) (x0 : Vec Ideal S8192x256 .bf16) (x1 : Vec Ideal S512x2048 .f32)
    (hx : SNT.Idx → EReal) (a : SNN.Idx → EReal) (hx0 : x0 = hx) (r : Fin 512) (q : Fin 2048) (R C : Fin 8192)
    (hR : R.val = 512 * (i 0).val + r.val) (hC : C.val = 2048 * (i 1).val + q.val)
    (hx1 : x1 (ix2 r q) = a (ix2 R C)) :
    k0_pay3 (F := Ideal) i (rowsL i x0) (rowsR i x0) x1 (ix2 r q) = S hx a R C := by
  subst hx0
  exact tile_apply i x0 x1 a r q R C hR hC hx1

/-- The tile's row sums: entry r is row 512·i₀ + r of the affinity matrix summed over column block i₁. -/
theorem rowsums_at (i : grid0.Coords) (x0 : Vec Ideal S8192x256 .bf16) (x1 : Vec Ideal S512x2048 .f32)
    (hx : SNT.Idx → EReal) (a : SNN.Idx → EReal) (hx0 : x0 = hx) (r : Fin 512) (R : Fin 8192)
    (hR : R.val = 512 * (i 0).val + r.val)
    (hx1 : ∀ (q : Fin 2048) (C : Fin 8192), C.val = 2048 * (i 1).val + q.val → x1 (ix2 r q) = a (ix2 R C)) :
    k0_pay5 (F := Ideal) i (rowsL i x0) (rowsR i x0) x1 (ix1 r) = blockSum hx a R.val (i 1).val := by
  have h1 : (i 1).val < 4 := (i 1).isLt
  rw [Pay.pay5_apply]
  unfold blockSum
  refine Finset.sum_congr rfl fun q _ => ?_
  have hq : q.val < 2048 := q.isLt
  have hC : 2048 * (i 1).val + q.val < 8192 := by omega
  rw [tile_at i x0 x1 hx a hx0 r q R ⟨2048 * (i 1).val + q.val, hC⟩ hR rfl (hx1 q ⟨_, hC⟩ rfl)]
  unfold Sn
  rw [dif_pos ⟨R.isLt, hC⟩]

/-- The row-sum store when i₁ = 0: zero plus the tile's row sums. -/
theorem acc_first (i : grid0.Coords) (x0 : Vec Ideal S8192x256 .bf16) (x1 : Vec Ideal S512x2048 .f32)
    (hx : SNT.Idx → EReal) (a : SNN.Idx → EReal) (hx0 : x0 = hx) (r : Fin 512) (R : Fin 8192)
    (hR : R.val = 512 * (i 0).val + r.val)
    (hx1 : ∀ (q : Fin 2048) (C : Fin 8192), C.val = 2048 * (i 1).val + q.val → x1 (ix2 r q) = a (ix2 R C)) :
    k0_pay1 (F := Ideal) (k0_pay4 (k0_pay2 (F := Ideal))) (k0_pay5 i (rowsL i x0) (rowsR i x0) x1) (ix2 r 0)
      = blockSum hx a R.val (i 1).val := by
  rw [Pay.pay1_apply, Pay.pay4_apply, Pay.pay2_apply, zero_add, rowsums_at i x0 x1 hx a hx0 r R hR hx1]

/-- The row-sum store when i₁ ≠ 0: what the buffer held plus the tile's row sums. -/
theorem acc_next (i : grid0.Coords) (x0 : Vec Ideal S8192x256 .bf16) (x1 : Vec Ideal S512x2048 .f32)
    (xo3 : Vec Ideal S512x1 .f32)
    (hx : SNT.Idx → EReal) (a : SNN.Idx → EReal) (hx0 : x0 = hx) (r : Fin 512) (R : Fin 8192)
    (hR : R.val = 512 * (i 0).val + r.val)
    (hx1 : ∀ (q : Fin 2048) (C : Fin 8192), C.val = 2048 * (i 1).val + q.val → x1 (ix2 r q) = a (ix2 R C)) :
    k0_pay1 (F := Ideal) (k0_pay4 xo3) (k0_pay5 i (rowsL i x0) (rowsR i x0) x1) (ix2 r 0)
      = xo3 (ix2 r 0) + blockSum hx a R.val (i 1).val := by
  rw [Pay.pay1_apply, Pay.pay4_apply, rowsums_at i x0 x1 hx a hx0 r R hR hx1]

variable (V : (c : Dev nD) → (b : Ref sig .tc) → Buf (Elt Ideal) ((c : Thread nD τ).loc b))

/-- The adjacency block's row r at point t, as the hypothesis the row-sum lemmas ask for. -/
theorem adj_row (c : Dev nD) (t : Fin cfg0.N) (r : Fin 512) (R : Fin 8192) (hR : R.val = 512 * (t.val / 4) + r.val) :
    ∀ (q : Fin 2048) (C : Fin 8192), C.val = 2048 * (grid0.coords t 1).val + q.val →
      (iblk0 V c 1 t : Vec Ideal S512x2048 .f32) (ix2 r q) = (V c main_arg1 : SNN.Idx → EReal) (ix2 R C) :=
  fun q C hC => iblk_adj V c t r q R C hR (by rw [hC, (coords_val t).2])

/-- After point t the affinity buffer's entry (r, q) is the affinity matrix's entry
    (512·(t / 4) + r, 2048·(t % 4) + q). -/
theorem out2_apply (c : Dev nD) (t : Fin cfg0.N) (r : Fin 512) (q : Fin 2048) (R C : Fin 8192)
    (hR : R.val = 512 * (t.val / 4) + r.val) (hC : C.val = 2048 * (t.val % 4) + q.val) :
    (outsAt0 V c t.val t.isLt).1 (ix2 r q) = S (V c main_v27) (V c main_arg1) R C := by
  have hco := coords_val t
  have hR' : R.val = 512 * (grid0.coords t 0).val + r.val := by rw [hco.1]; exact hR
  have hC' : C.val = 2048 * (grid0.coords t 1).val + q.val := by rw [hco.2]; exact hC
  by_cases h0 : t.val % 4 = 0
  · rw [outsAt0_A V c t h0]
    dsimp only
    exact (congrFun (out_A_2 (F := Ideal) c (grid0.coords t) (ms0_0 t) (hs0_0 t) (ms0_1 t) (hs0_1 t) (ms0_2 t) (hs0_2 t)
        (ms0_3 t) (hs0_3 t) ((hcond0_0 t).mpr h0) (iblk0 V c 0 t) (iblk0 V c 1 t)) (ix2 r q)).trans
      (tile_at (grid0.coords t) (iblk0 V c 0 t) (iblk0 V c 1 t) (V c main_v27) (V c main_arg1) (iblk_feat V c t) r q R C
        hR' hC' (iblk_adj V c t r q R C hR hC))
  · rw [outsAt0_B V c t h0]
    dsimp only
    exact (congrFun (out_B_2 (F := Ideal) c (grid0.coords t) (ms0_0 t) (hs0_0 t) (ms0_1 t) (hs0_1 t) (ms0_2 t) (hs0_2 t)
        (ms0_3 t) (hs0_3 t) (fun h => h0 ((hcond0_0 t).mp h)) (iblk0 V c 0 t) (iblk0 V c 1 t)
        (outsAt0 V c (t.val - 1) (Nat.lt_of_le_of_lt (Nat.sub_le _ _) t.isLt)).2) (ix2 r q)).trans
      (tile_at (grid0.coords t) (iblk0 V c 0 t) (iblk0 V c 1 t) (V c main_v27) (V c main_arg1) (iblk_feat V c t) r q R C
        hR' hC' (iblk_adj V c t r q R C hR hC))

/-- After point n the row-sum buffer's entry r is row 512·(n / 4) + r of the affinity matrix summed over the column
    blocks 0 … n % 4. -/
theorem out3_apply (c : Dev nD) (n : ℕ) : ∀ (h : n < cfg0.N) (r : Fin 512),
    (outsAt0 V c n h).2 (ix2 r 0)
      = ∑ s ∈ Finset.range (n % 4 + 1), blockSum (V c main_v27) (V c main_arg1) (512 * (n / 4) + r.val) s := by
  induction n with
  | zero =>
    intro h r
    have hco := coords_val ⟨0, h⟩
    have hr : r.val < 512 := r.isLt
    have hR : (⟨512 * (0 / 4) + r.val, by omega⟩ : Fin 8192).val = 512 * ((⟨0, h⟩ : Fin cfg0.N).val / 4) + r.val := rfl
    rw [outsAt0_A V c ⟨0, h⟩ rfl]
    dsimp only
    refine (congrFun (out_A_3 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) ((hcond0_0 ⟨0, h⟩).mpr rfl) (iblk0 V c 0 ⟨0, h⟩)
        (iblk0 V c 1 ⟨0, h⟩)) (ix2 r 0)).trans ?_
    refine (acc_first (grid0.coords ⟨0, h⟩) (iblk0 V c 0 ⟨0, h⟩) (iblk0 V c 1 ⟨0, h⟩) (V c main_v27) (V c main_arg1)
      (iblk_feat V c ⟨0, h⟩) r ⟨512 * (0 / 4) + r.val, by omega⟩ (by rw [hco.1]) (adj_row V c ⟨0, h⟩ r _ hR)).trans ?_
    rw [hco.2]
    exact (Finset.sum_range_one _).symm
  | succ n ih =>
    intro h r
    have hN : n + 1 < 64 := lt_of_lt_of_eq h N_0
    have hco := coords_val ⟨n + 1, h⟩
    have hr : r.val < 512 := r.isLt
    have hb : 512 * ((n + 1) / 4) + r.val < 8192 := by omega
    have hR : (⟨512 * ((n + 1) / 4) + r.val, hb⟩ : Fin 8192).val = 512 * ((⟨n + 1, h⟩ : Fin cfg0.N).val / 4) + r.val := rfl
    by_cases h0 : (n + 1) % 4 = 0
    · rw [outsAt0_A V c ⟨n + 1, h⟩ h0]
      dsimp only
      refine (congrFun (out_A_3 (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) (ms0_3 ⟨n + 1, h⟩) (hs0_3 ⟨n + 1, h⟩)
          ((hcond0_0 ⟨n + 1, h⟩).mpr h0) (iblk0 V c 0 ⟨n + 1, h⟩) (iblk0 V c 1 ⟨n + 1, h⟩)) (ix2 r 0)).trans ?_
      refine (acc_first (grid0.coords ⟨n + 1, h⟩) (iblk0 V c 0 ⟨n + 1, h⟩) (iblk0 V c 1 ⟨n + 1, h⟩) (V c main_v27)
        (V c main_arg1) (iblk_feat V c ⟨n + 1, h⟩) r ⟨512 * ((n + 1) / 4) + r.val, hb⟩ (by rw [hco.1])
        (adj_row V c ⟨n + 1, h⟩ r _ hR)).trans ?_
      rw [hco.2]
      show blockSum _ _ _ ((n + 1) % 4) = _
      rw [h0]
      exact (Finset.sum_range_one _).symm
    · rw [outsAt0_B V c ⟨n + 1, h⟩ h0]
      dsimp only
      refine (congrFun (out_B_3 (F := Ideal) c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) (ms0_3 ⟨n + 1, h⟩) (hs0_3 ⟨n + 1, h⟩)
          (fun hh => h0 ((hcond0_0 ⟨n + 1, h⟩).mp hh)) (iblk0 V c 0 ⟨n + 1, h⟩) (iblk0 V c 1 ⟨n + 1, h⟩)
          (outsAt0 V c n (Nat.lt_of_succ_lt h)).2) (ix2 r 0)).trans ?_
      refine (acc_next (grid0.coords ⟨n + 1, h⟩) (iblk0 V c 0 ⟨n + 1, h⟩) (iblk0 V c 1 ⟨n + 1, h⟩)
        (outsAt0 V c n (Nat.lt_of_succ_lt h)).2 (V c main_v27)
        (V c main_arg1) (iblk_feat V c ⟨n + 1, h⟩) r ⟨512 * ((n + 1) / 4) + r.val, hb⟩ (by rw [hco.1])
        (adj_row V c ⟨n + 1, h⟩ r _ hR)).trans ?_
      rw [ih (Nat.lt_of_succ_lt h) r, hco.2]
      show _ + blockSum _ _ (512 * ((n + 1) / 4) + r.val) ((n + 1) % 4) = _
      have e1 : (n + 1) / 4 = n / 4 := by omega
      have e2 : (n + 1) % 4 = n % 4 + 1 := by omega
      rw [e1, e2, Finset.sum_range_succ _ (n % 4 + 1)]

end Cert.KernelIdeal.R0

end
-- ==== Proof.LibBlockSum.lean ====
/-
  A sum over 4096 positions taken in four consecutive stretches of 1024: the law that joins a contraction
  accumulated stretch by stretch with the contraction taken whole.  Only commutativity and associativity of
  the sum are used, so it holds in any additive commutative monoid — the extended reals included, with no
  finiteness hypothesis.
-/
import Mathlib.Algebra.BigOperators.Fin
import Mathlib.Algebra.BigOperators.Intervals

namespace Cert.BlockSum

variable {M : Type*} [AddCommMonoid M]

/-- A sum over the first `c * n` naturals is the sum, over the `c` stretches of length `n`, of each stretch's sum. -/
theorem sum_range_blocks (g : ℕ → M) (n : ℕ) :
    ∀ c : ℕ, ∑ k ∈ Finset.range (c * n), g k = ∑ s ∈ Finset.range c, ∑ l ∈ Finset.range n, g (n * s + l)
  | 0 => by simp
  | c + 1 => by
    rw [Nat.succ_mul, Finset.sum_range_add, sum_range_blocks g n c, Finset.sum_range_succ, Nat.mul_comm n c]

/-- The same with both index sets spelt as `Fin`: 4096 positions as four stretches of 1024. -/
theorem sum_fin_4096 (g : ℕ → M) :
    ∑ k : Fin 4096, g k.val = ∑ s ∈ Finset.range 4, ∑ l : Fin 1024, g (1024 * s + l.val) := by
  rw [Fin.sum_univ_eq_sum_range g 4096, show (4096 : ℕ) = 4 * 1024 from rfl, sum_range_blocks g 1024 4]
  refine Finset.sum_congr rfl fun s _ => ?_
  exact (Fin.sum_univ_eq_sum_range (fun l => g (1024 * s + l)) 1024).symm

end Cert.BlockSum
-- ==== Proof.R0Arr.lean ====
/-
  The affinity call's two result arrays, for any contents the call is entered with.

  The affinity output's blocks tile the [8192, 8192] array and every point writes its block back, holding the affinity
  matrix's tile: the array ends holding the affinity matrix. The row-sum output's block of a row block is written
  back after the fourth column block, holding for each row the sum over the four column blocks of the row's sums
  over a column block — the row's sum over all 8192 columns, by regrouping a finite sum in the extended reals
  (an additive commutative monoid: no finiteness of the entries is used).
-/
import proofs.«126049_j24678882083163_1_alg».proof.Proof.R0Acc
import proofs.«126049_j24678882083163_1_alg».proof.Proof.LibBlockSum

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx Cert.Gcn
open scoped BigOperators

/-- A row of the affinity matrix summed over its 8192 columns is the sum of its four column-block sums. -/
theorem rowsum_blocks (hx : SNT.Idx → EReal) (a : SNN.Idx → EReal) (R : Fin 8192) :
    rowsum hx a R = ∑ s ∈ Finset.range 4, blockSum hx a R.val s := by
  unfold rowsum
  have e : ∀ j : Fin 8192, S hx a R j = Sn hx a R.val j.val := fun j => by
    unfold Sn; rw [dif_pos ⟨R.isLt, j.isLt⟩]
  refine (Finset.sum_congr rfl fun j _ => e j).trans ?_
  refine (Fin.sum_univ_eq_sum_range (fun k => Sn hx a R.val k) 8192).trans ?_
  refine (Cert.BlockSum.sum_range_blocks (fun k => Sn hx a R.val k) 2048 4).trans ?_
  refine Finset.sum_congr rfl fun s _ => ?_
  exact (Fin.sum_univ_eq_sum_range (fun l => Sn hx a R.val (2048 * s + l)) 2048).symm

variable (V : (c : Dev nD) → (b : Ref sig .tc) → Buf (Elt Ideal) ((c : Thread nD τ).loc b))

/-- What point t writes back of the affinity output is its block of the affinity matrix. -/
theorem flushed2_eq (c : Dev nD) (t : Fin cfg0.N) :
    (dat0 (F := Ideal) V c).flushed 2 t
      = ((cfg0.win 2).blk t).view.read (Elt Ideal) (SArr (V c main_v27) (V c main_arg1)) := by
  show (cfg0.win 2).cut (grid0.coords t) ((dat0 V c).after 2 t) = _
  rw [after0_2]
  funext j
  have hj0 : (j 0).val < 512 := (j 0).isLt
  have hj1 : (j 1).val < 2048 := (j 1).isLt
  have hN : t.val < 64 := lt_of_lt_of_eq t.isLt N_0
  have e : (cfg0.win 2).xinj (grid0.coords t) j = ix2 (⟨(j 0).val, hj0⟩ : Fin 512) (⟨(j 1).val, hj1⟩ : Fin 2048) := by
    funext a
    match a with
    | ⟨0, _⟩ => rfl
    | ⟨1, _⟩ => rfl
  rw [View.read_apply]
  show (outsAt0 V c t.val t.isLt).1 ((cfg0.win 2).xinj (grid0.coords t) j) = _
  refine (congrArg (outsAt0 V c t.val t.isLt).1 e).trans ?_
  refine (out2_apply V c t ⟨(j 0).val, hj0⟩ ⟨(j 1).val, hj1⟩ ⟨512 * (t.val / 4) + (j 0).val, by omega⟩
    ⟨2048 * (t.val % 4) + (j 1).val, by omega⟩ rfl rfl).trans ?_
  unfold SArr
  congr 1 <;> apply Fin.ext
  · show 512 * (t.val / 4) + (j 0).val = win0_2.index t 0 * 512 + 1 * (j 0).val
    rw [(index2 t).1]; omega
  · show 2048 * (t.val % 4) + (j 1).val = win0_2.index t 1 * 2048 + 1 * (j 1).val
    rw [(index2 t).2]; omega

/-- An entry of the affinity array is in point t's block iff each coordinate is in the block's range on its axis. -/
theorem mem_blk2 (t : Fin cfg0.N) (i : S8192x8192.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v28_0).slice (win0_2.rect t)).set ↔ _
  rw [View.set_slice_whole, Rect.mem_set_unit]
  exact Iff.rfl

/-- The affinity array after the call is the affinity matrix of the feature and adjacency arrays it was entered with. -/
theorem arr2 (c : Dev nD) :
    (dat0 (F := Ideal) V c).arrAt 2 cfg0.N = Cert.Gcn.SArr (V c main_v27) (V c main_arg1) :=
  (dat0 (F := Ideal) V c).arrAt_eq_of_cover 2 (SArr (V c main_v27) (V c main_arg1)) (fun t _ => flushed2_eq V c t) fun i => by
    have h0 : (i 0).val < 8192 := (i 0).isLt
    have h1 : (i 1).val < 8192 := (i 1).isLt
    have hlt : 4 * ((i 0).val / 512) + (i 1).val / 2048 < cfg0.N := by rw [show cfg0.N = 64 from N_0]; omega
    refine ⟨⟨4 * ((i 0).val / 512) + (i 1).val / 2048, hlt⟩, flush0_2 _, ?_⟩
    rw [mem_blk2]
    intro a
    match a with
    | ⟨0, _⟩ =>
      show win0_2.index ⟨_, hlt⟩ 0 * 512 ≤ (i 0).val ∧ (i 0).val < win0_2.index ⟨_, hlt⟩ 0 * 512 + 512
      rw [(index2 ⟨_, hlt⟩).1]; show (4 * ((i 0).val / 512) + (i 1).val / 2048) / 4 * 512 ≤ _ ∧ _ < (4 * ((i 0).val / 512) + (i 1).val / 2048) / 4 * 512 + 512; omega
    | ⟨1, _⟩ =>
      show win0_2.index ⟨_, hlt⟩ 1 * 2048 ≤ (i 1).val ∧ (i 1).val < win0_2.index ⟨_, hlt⟩ 1 * 2048 + 2048
      rw [(index2 ⟨_, hlt⟩).2]; show (4 * ((i 0).val / 512) + (i 1).val / 2048) % 4 * 2048 ≤ _ ∧ _ < (4 * ((i 0).val / 512) + (i 1).val / 2048) % 4 * 2048 + 2048; omega

/-- What a point that closes a row block (t % 4 = 3) writes back of the row-sum output is its block of the row sums. -/
theorem flushed3_eq (c : Dev nD) (t : Fin cfg0.N) (hf : (cfg0.win 3).flush t = true) :
    (dat0 (F := Ideal) V c).flushed 3 t
      = ((cfg0.win 3).blk t).view.read (Elt Ideal) (rowsumCol (V c main_v27) (V c main_arg1)) := by
  have h3 : t.val % 4 = 3 := (flush0_3 t).mp hf
  show (cfg0.win 3).cut (grid0.coords t) ((dat0 V c).after 3 t) = _
  rw [after0_3]
  funext j
  have hj0 : (j 0).val < 512 := (j 0).isLt
  have hj1 : (j 1).val < 1 := (j 1).isLt
  have hN : t.val < 64 := lt_of_lt_of_eq t.isLt N_0
  have e : (cfg0.win 3).xinj (grid0.coords t) j = ix2 (⟨(j 0).val, hj0⟩ : Fin 512) (0 : Fin 1) := by
    funext a
    match a with
    | ⟨0, _⟩ => rfl
    | ⟨1, _⟩ => exact Fin.ext (by show (j 1).val = 0; omega)
  rw [View.read_apply]
  show (outsAt0 V c t.val t.isLt).2 ((cfg0.win 3).xinj (grid0.coords t) j) = _
  refine (congrArg (outsAt0 V c t.val t.isLt).2 e).trans ?_
  refine (out3_apply V c t.val t.isLt ⟨(j 0).val, hj0⟩).trans ?_
  have hp : ((((cfg0.win 3).blk t).view.emb j) 0 : Fin 8192).val = 512 * (t.val / 4) + (j 0).val := by
    show win0_3.index t 0 * 512 + 1 * (j 0).val = _
    rw [(index3 t).1]; omega
  have key : ∀ R : Fin 8192, R.val = 512 * (t.val / 4) + (j 0).val →
      ∑ s ∈ Finset.range (t.val % 4 + 1), blockSum (V c main_v27) (V c main_arg1) (512 * (t.val / 4) + (j 0).val) s
        = rowsum (V c main_v27) (V c main_arg1) R := by
    intro R hR
    rw [rowsum_blocks, hR, h3]
  exact key _ hp

/-- An entry of the row-sum array is in point t's block iff each coordinate is in the block's range on its axis. -/
theorem mem_blk3 (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v28_1).slice (win0_3.rect t)).set ↔ _
  rw [View.set_slice_whole, Rect.mem_set_unit]
  exact Iff.rfl

/-- The row-sum array after the call holds the affinity matrix's row sums. -/
theorem arr3 (c : Dev nD) :
    (dat0 (F := Ideal) V c).arrAt 3 cfg0.N = Cert.Gcn.rowsumCol (V c main_v27) (V c main_arg1) :=
  (dat0 (F := Ideal) V c).arrAt_eq_of_cover 3 (rowsumCol (V c main_v27) (V c main_arg1)) (flushed3_eq V c) fun i => by
    have h0 : (i 0).val < 8192 := (i 0).isLt
    have h1 : (i 1).val < 1 := (i 1).isLt
    have hlt : 4 * ((i 0).val / 512) + 3 < cfg0.N := by rw [show cfg0.N = 64 from N_0]; omega
    refine ⟨⟨4 * ((i 0).val / 512) + 3, hlt⟩, (flush0_3 _).mpr (by show (4 * ((i 0).val / 512) + 3) % 4 = 3; omega), ?_⟩
    rw [mem_blk3]
    intro a
    match a with
    | ⟨0, _⟩ =>
      show win0_3.index ⟨_, hlt⟩ 0 * 512 ≤ (i 0).val ∧ (i 0).val < win0_3.index ⟨_, hlt⟩ 0 * 512 + 512
      rw [(index3 ⟨_, hlt⟩).1]; show (4 * ((i 0).val / 512) + 3) / 4 * 512 ≤ _ ∧ _ < (4 * ((i 0).val / 512) + 3) / 4 * 512 + 512; omega
    | ⟨1, _⟩ =>
      show win0_3.index ⟨_, hlt⟩ 1 * 1 ≤ (i 1).val ∧ (i 1).val < win0_3.index ⟨_, hlt⟩ 1 * 1 + 1
      rw [(index3 ⟨_, hlt⟩).2]; omega

end Cert.KernelIdeal.R0

end
-- ==== Proof.R1Pieces.lean ====
/-
  The propagation body, case by case, as values.

  At a grid point (i₀, i₁) the body holds a 512 × 2048 tile of the affinity matrix, the whole scaled feature array
  (of which it loads the 2048 rows starting at row 2048 · i₁), a 512 × 1 column of row factors, and a 512 × 128
  accumulator block. At the first column tile it stores the zero block and reads it back before accumulating; at every
  tile it adds the tile's contraction with the loaded feature rows onto the accumulator; at the last column tile it
  reads the accumulator back, multiplies by the row factor and applies the leaky rectifier. Each lemma states what one
  case leaves in the accumulator block as the body's arithmetic applied to the blocks it was given.
-/
import proofs.«126049_j24678882083163_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.R1

open Cert.KernelIdeal Cert.KernelIdeal.Gen

variable {F : FTy → Type} [FloatOps F]

theorem hz : (![0, 0] : Fin 2 → Nat) = fun _ => 0 := funext fun a => by fin_cases a <;> rfl

/-- The 2048 rows of the scaled feature array that the body loads at a grid point: rows `2048 · i₁ …`. -/
def rows (i : grid1.Coords) (x1 : Vec F S8192x128 .bf16) : Vec F S2048x128 .bf16 :=
  View.ld x1 (Rect.unit (s := S8192x128) (k1_off1 i) S2048x128.size (k1_off1_inb i))

/-- A middle column tile: the body leaves, in the output's staging buffer holding `xo3`, the accumulator plus the
    tile's contraction with the loaded feature rows. -/
theorem out_B (c : Dev nD) (i : grid1.Coords) (a2 : Memref sig .tc .vmem S512x2048 .f32) (h2 : a2.IsWhole)
    (a3 : Memref sig .tc .vmem S8192x128 .bf16) (h3 : a3.IsWhole) (a4 : Memref sig .tc .vmem S512x1 .f32) (h4 : a4.IsWhole)
    (a5 : Memref sig .tc .vmem S512x128 .f32) (h5 : a5.IsWhole) (hc0 : ¬cond1_0 i) (hc1 : ¬cond1_1 i)
    (x0 : Vec F S512x2048 .f32) (x1 : Vec F S8192x128 .bf16) (x2 : Vec F S512x1 .f32) (xo3 : Vec F S512x128 .f32) :
    out1_B_3 c i a2 h2 a3 h3 a4 h4 a5 h5 hc0 hc1 x0 x1 x2 xo3 = k1_pay2 (rows i x1) x0 xo3 := by
  unfold out1_B_3
  rw [View.read_writes_eq_canon _ _ _ (cover1_B_3 c i a2 h2 a3 h3 a4 h4 a5 h5 hc0 hc1 x0 x1 x2 xo3)]
  unfold kernelRun1_B
  dsimp only
  rw [View.canon_unit_zero hz]
  simp only [View.readAt_eq_ld, h2.read_unread, h3.read_unread, h5.read_unread, View.ld_unit_zero (S := S512x2048) hz,
    View.ld_unit_zero (S := S512x128) hz]
  rfl

/-- The first column tile: the body zeroes the accumulator, reads the zero back, and leaves the zero block plus the
    tile's contraction. -/
theorem out_A (c : Dev nD) (i : grid1.Coords) (a2 : Memref sig .tc .vmem S512x2048 .f32) (h2 : a2.IsWhole)
    (a3 : Memref sig .tc .vmem S8192x128 .bf16) (h3 : a3.IsWhole) (a4 : Memref sig .tc .vmem S512x1 .f32) (h4 : a4.IsWhole)
    (a5 : Memref sig .tc .vmem S512x128 .f32) (h5 : a5.IsWhole) (hc0 : cond1_0 i) (hc1 : ¬cond1_1 i)
    (x0 : Vec F S512x2048 .f32) (x1 : Vec F S8192x128 .bf16) (x2 : Vec F S512x1 .f32) :
    out1_A_3 c i a2 h2 a3 h3 a4 h4 a5 h5 hc0 hc1 x0 x1 x2 = k1_pay2 (rows i x1) x0 (k1_pay1 (F := F)) := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S512x128) hz, View.readCov_unit_zero (S := S512x128) _ hz]
  simp only [View.readAt_eq_ld, h2.read_unread, h3.read_unread, View.ld_unit_zero (S := S512x2048) hz]
  rfl

/-- The last column tile: the body accumulates, reads the accumulator back, scales it by the row factor and rectifies. -/
theorem out_C (c : Dev nD) (i : grid1.Coords) (a2 : Memref sig .tc .vmem S512x2048 .f32) (h2 : a2.IsWhole)
    (a3 : Memref sig .tc .vmem S8192x128 .bf16) (h3 : a3.IsWhole) (a4 : Memref sig .tc .vmem S512x1 .f32) (h4 : a4.IsWhole)
    (a5 : Memref sig .tc .vmem S512x128 .f32) (h5 : a5.IsWhole) (hc0 : ¬cond1_0 i) (hc1 : cond1_1 i)
    (x0 : Vec F S512x2048 .f32) (x1 : Vec F S8192x128 .bf16) (x2 : Vec F S512x1 .f32) (xo3 : Vec F S512x128 .f32) :
    out1_C_3 c i a2 h2 a3 h3 a4 h4 a5 h5 hc0 hc1 x0 x1 x2 xo3 = k1_pay3 (k1_pay2 (rows i x1) x0 xo3) x2 := by
  unfold out1_C_3
  rw [View.read_writes_eq_canon _ _ _ (cover1_C_3 c i a2 h2 a3 h3 a4 h4 a5 h5 hc0 hc1 x0 x1 x2 xo3)]
  unfold kernelRun1_C
  dsimp only
  sl_unfold_words
  rw [View.canon_cons_unit_zero (S := S512x128) hz, View.readCov_unit_zero (S := S512x128) _ hz]
  simp only [View.readAt_eq_ld, h2.read_unread, h3.read_unread, h4.read_unread, h5.read_unread,
    View.ld_unit_zero (S := S512x2048) hz, View.ld_unit_zero (S := S512x128) hz, View.ld_unit_zero (S := S512x1) hz]
  rfl

end Cert.KernelIdeal.R1

end
-- ==== Proof.R1Acc.lean ====
/-
  The accumulator block of the propagation step, entry by entry.

  Grid point t has coordinates (t / 4, t % 4). The matrix tile at t is rows 512 · (t / 4) … and columns 2048 · (t % 4) …
  of the matrix; the feature block is the whole scaled feature array, of which the body loads rows 2048 · (t % 4) …; the
  row-factor block is rows 512 · (t / 4) … of the column of row factors. So the contraction the body adds at t, at entry
  (r, k), is the stretch of 2048 positions starting at 2048 · (t % 4) of row 512 · (t / 4) + r of the matrix against
  column k of the features. Over the four points of a row block the accumulator goes from zero through the four
  stretches in order; the last point multiplies by the row factor and rectifies. Four stretches of 2048 added in order
  onto zero are the sum over all 8192 positions — a finite sum in a commutative monoid, so nothing about the entries
  being finite is used.
-/
import proofs.«126049_j24678882083163_1_alg».proof.Proof.R1Pieces
import proofs.«126049_j24678882083163_1_alg».proof.Proof.Pay
import proofs.«126049_j24678882083163_1_alg».proof.Proof.Spec
import proofs.«126049_j24678882083163_1_alg».proof.Proof.LibBlockSum
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Gcn

variable (V : (c : Dev nD) → (b : Ref sig .tc) → Buf (Elt Ideal) ((c : Thread nD τ).loc b))

/-- The grid point `t` has coordinates `(t / 4, t % 4)`: the block indices of the four windows and the row offset of
    the feature load, decided once over the 64 points. -/
theorem idx_facts : ∀ t : Fin cfg1.N,
    win1_0.index t 0 = t.val / 4 ∧ win1_0.index t 1 = t.val % 4 ∧ win1_1.index t 0 = 0 ∧ win1_1.index t 1 = 0
      ∧ win1_2.index t 0 = t.val / 4 ∧ win1_2.index t 1 = 0 ∧ win1_3.index t 0 = t.val / 4 ∧ win1_3.index t 1 = 0
      ∧ k1_off1 (grid1.coords t) 0 = 2048 * (t.val % 4) ∧ k1_off1 (grid1.coords t) 1 = 0 :=
  (by decide +kernel : ∀ t : Fin grid1.N,
    win1_0.index t 0 = t.val / 4 ∧ win1_0.index t 1 = t.val % 4 ∧ win1_1.index t 0 = 0 ∧ win1_1.index t 1 = 0
      ∧ win1_2.index t 0 = t.val / 4 ∧ win1_2.index t 1 = 0 ∧ win1_3.index t 0 = t.val / 4 ∧ win1_3.index t 1 = 0
      ∧ k1_off1 (grid1.coords t) 0 = 2048 * (t.val % 4) ∧ k1_off1 (grid1.coords t) 1 = 0)

/-- The matrix tile at point `t`: rows `512 · (t / 4) …`, columns `2048 · (t % 4) …` of the matrix. -/
theorem iblk0_apply (c : Dev nD) (t : Fin cfg1.N) (r : Fin 512) (q : Fin 2048) (R J : Fin 8192)
    (hR : R.val = 512 * (t.val / 4) + r.val) (hJ : J.val = 2048 * (t.val % 4) + q.val) :
    (iblk1 V c 0 t : Vec Ideal S512x2048 .f32) (ix2 r q) = (V c main_v28_0 : SNN.Idx → EReal) (ix2 R J) := by
  have hi := idx_facts t
  unfold iblk1
  rw [View.read_apply]
  show V c main_v28_0 _ = V c main_v28_0 _
  congr 1
  funext a
  apply Fin.ext
  match a with
  | ⟨0, _⟩ => show win1_0.index t 0 * 512 + 1 * r.val = R.val; rw [hi.1, hR]; omega
  | ⟨1, _⟩ => show win1_0.index t 1 * 2048 + 1 * q.val = J.val; rw [hi.2.1, hJ]; omega

/-- The feature window's one block is the whole scaled feature array. -/
theorem iblk1_apply (c : Dev nD) (t : Fin cfg1.N) (j : Fin 8192) (k : Fin 128) :
    (iblk1 V c 1 t : Vec Ideal S8192x128 .bf16) (ix2 j k) = (V c main_v32 : SND.Idx → EReal) (ix2 j k) := by
  have hi := idx_facts t
  unfold iblk1
  rw [View.read_apply]
  show V c main_v32 _ = V c main_v32 _
  congr 1
  funext a
  apply Fin.ext
  match a with
  | ⟨0, _⟩ => show win1_1.index t 0 * 8192 + 1 * j.val = j.val; rw [hi.2.2.1]; omega
  | ⟨1, _⟩ => show win1_1.index t 1 * 128 + 1 * k.val = k.val; rw [hi.2.2.2.1]; omega

/-- The row-factor block at point `t`: rows `512 · (t / 4) …` of the column. -/
theorem iblk2_apply (c : Dev nD) (t : Fin cfg1.N) (r : Fin 512) (R : Fin 8192)
    (hR : R.val = 512 * (t.val / 4) + r.val) :
    (iblk1 V c 2 t : Vec Ideal S512x1 .f32) (ix2 r 0) = (V c main_v29 : SN1.Idx → EReal) (ix2 R 0) := by
  have hi := idx_facts t
  unfold iblk1
  rw [View.read_apply]
  show V c main_v29 _ = V c main_v29 _
  congr 1
  funext a
  apply Fin.ext
  match a with
  | ⟨0, _⟩ => show win1_2.index t 0 * 512 + 1 * r.val = R.val; rw [hi.2.2.2.2.1, hR]; omega
  | ⟨1, _⟩ => show win1_2.index t 1 * 1 + 1 * (0 : Fin 1).val = (0 : Fin 1).val; rw [hi.2.2.2.2.2.1]; rfl

/-- The loaded feature rows at point `t`: rows `2048 · (t % 4) …` of the block the body was given. -/
theorem rows_apply (t : Fin cfg1.N) (x1 : Vec Ideal S8192x128 .bf16) (q : Fin 2048) (k : Fin 128) (J : Fin 8192)
    (hJ : J.val = 2048 * (t.val % 4) + q.val) :
    rows (F := Ideal) (grid1.coords t) x1 (ix2 q k) = x1 (ix2 J k) := by
  have hi := idx_facts t
  unfold rows
  show x1 _ = x1 _
  congr 1
  funext a
  apply Fin.ext
  match a with
  | ⟨0, _⟩ => show k1_off1 (grid1.coords t) 0 + 1 * q.val = J.val; rw [hi.2.2.2.2.2.2.2.2.1, hJ]; omega
  | ⟨1, _⟩ => show k1_off1 (grid1.coords t) 1 + 1 * k.val = k.val; rw [hi.2.2.2.2.2.2.2.2.2]; omega

/-- Row `R` of the matrix times column `k` of the features, position by position, continued by zero past the last
    position (so that stretches of positions can be named by natural numbers). -/
def term (S : SNN.Idx → EReal) (H : SND.Idx → EReal) (R : Fin 8192) (k : Fin 128) (n : ℕ) : EReal :=
  if h : n < 8192 then S (ix2 R ⟨n, h⟩) * H (ix2 ⟨n, h⟩ k) else 0

/-- A tile's contraction with the loaded feature rows at point `t`, entry `(r, k)`, for a tile `x0` that holds rows
    `R` … of the matrix `S` at columns `2048 · (t % 4) …` and a feature block `x1` that holds `H`: the stretch of 2048
    positions starting at `2048 · (t % 4)` of row `R` of `S` against column `k` of `H`. -/
theorem contr_eq (t : Fin cfg1.N) (x0 : Vec Ideal S512x2048 .f32) (x1 : Vec Ideal S8192x128 .bf16)
    (S : SNN.Idx → EReal) (H : SND.Idx → EReal) (r : Fin 512) (k : Fin 128) (R : Fin 8192)
    (h0 : ∀ (q : Fin 2048) (J : Fin 8192), J.val = 2048 * (t.val % 4) + q.val → x0 (ix2 r q) = S (ix2 R J))
    (h1 : ∀ j : Fin 8192, x1 (ix2 j k) = H (ix2 j k)) :
    ∑ q : Fin 2048, x0 (ix2 r q) * rows (F := Ideal) (grid1.coords t) x1 (ix2 q k)
      = ∑ l ∈ Finset.range 2048, term S H R k (2048 * (t.val % 4) + l) := by
  rw [← Fin.sum_univ_eq_sum_range (fun l => term S H R k (2048 * (t.val % 4) + l)) 2048]
  refine Finset.sum_congr rfl fun q _ => ?_
  have hlt : 2048 * (t.val % 4) + q.val < 8192 := by have := q.isLt; omega
  unfold term
  rw [dif_pos hlt, h0 q ⟨_, hlt⟩ rfl, rows_apply t x1 q k ⟨_, hlt⟩ rfl, h1]

/-- What the accumulator block holds after a first column tile. -/
theorem acc_A (c : Dev nD) (t : Fin cfg1.N) (h0 : t.val % 4 = 0) (h1 : ¬t.val % 4 = 3) :
    outsAt1 V c t.val t.isLt
      = k1_pay2 (F := Ideal) (rows (grid1.coords t) (iblk1 V c 1 t)) (iblk1 V c 0 t) (k1_pay1 (F := Ideal)) := by
  rw [outsAt1_A V c t h0 h1]
  exact out_A (F := Ideal) c (grid1.coords t) (ms1_0 t) (hs1_0 t) (ms1_1 t) (hs1_1 t) (ms1_2 t) (hs1_2 t) (ms1_3 t) (hs1_3 t)
    _ _ (iblk1 V c 0 t) (iblk1 V c 1 t) (iblk1 V c 2 t)

/-- What it holds after a middle column tile, over what the point before left. -/
theorem acc_B (c : Dev nD) (t : Fin cfg1.N) (h0 : ¬t.val % 4 = 0) (h1 : ¬t.val % 4 = 3) :
    outsAt1 V c t.val t.isLt
      = k1_pay2 (F := Ideal) (rows (grid1.coords t) (iblk1 V c 1 t)) (iblk1 V c 0 t)
          (outsAt1 V c (t.val - 1) (Nat.lt_of_le_of_lt (Nat.sub_le _ _) t.isLt)) := by
  rw [outsAt1_B V c t h0 h1]
  exact out_B (F := Ideal) c (grid1.coords t) (ms1_0 t) (hs1_0 t) (ms1_1 t) (hs1_1 t) (ms1_2 t) (hs1_2 t) (ms1_3 t) (hs1_3 t)
    _ _ (iblk1 V c 0 t) (iblk1 V c 1 t) (iblk1 V c 2 t) (outsAt1 V c (t.val - 1) (Nat.lt_of_le_of_lt (Nat.sub_le _ _) t.isLt))

/-- What it holds after a last column tile, over what the point before left. -/
theorem acc_C (c : Dev nD) (t : Fin cfg1.N) (h0 : ¬t.val % 4 = 0) (h1 : t.val % 4 = 3) :
    outsAt1 V c t.val t.isLt
      = k1_pay3 (F := Ideal) (k1_pay2 (F := Ideal) (rows (grid1.coords t) (iblk1 V c 1 t)) (iblk1 V c 0 t)
          (outsAt1 V c (t.val - 1) (Nat.lt_of_le_of_lt (Nat.sub_le _ _) t.isLt))) (iblk1 V c 2 t) := by
  rw [outsAt1_C V c t h0 h1]
  exact out_C (F := Ideal) c (grid1.coords t) (ms1_0 t) (hs1_0 t) (ms1_1 t) (hs1_1 t) (ms1_2 t) (hs1_2 t) (ms1_3 t) (hs1_3 t)
    _ _ (iblk1 V c 0 t) (iblk1 V c 1 t) (iblk1 V c 2 t) (outsAt1 V c (t.val - 1) (Nat.lt_of_le_of_lt (Nat.sub_le _ _) t.isLt))

/-- After a first column tile, entry `(r, k)`: zero plus the tile's stretch. -/
theorem acc_A_apply (c : Dev nD) (t : Fin cfg1.N) (h0 : t.val % 4 = 0) (h1 : ¬t.val % 4 = 3) (r : Fin 512) (k : Fin 128)
    (R : Fin 8192) (hR : R.val = 512 * (t.val / 4) + r.val) :
    outsAt1 V c t.val t.isLt (ix2 r k)
      = 0 + ∑ l ∈ Finset.range 2048, term (V c main_v28_0) (V c main_v32) R k (2048 * (t.val % 4) + l) := by
  refine (congrFun (acc_A V c t h0 h1) (ix2 r k)).trans ?_
  refine (Pay.k1_pay2_apply (rows (grid1.coords t) (iblk1 V c 1 t)) (iblk1 V c 0 t) _ r k).trans ?_
  rw [Pay.k1_pay1_apply]
  exact congrArg (0 + ·) (contr_eq t (iblk1 V c 0 t) (iblk1 V c 1 t) (V c main_v28_0) (V c main_v32) r k R
      (fun q J hJ => iblk0_apply V c t r q R J hR hJ) (fun j => iblk1_apply V c t j k))

/-- After a middle column tile, entry `(r, k)`: what the point before left plus the tile's stretch. -/
theorem acc_B_apply (c : Dev nD) (t : Fin cfg1.N) (h0 : ¬t.val % 4 = 0) (h1 : ¬t.val % 4 = 3) (r : Fin 512) (k : Fin 128)
    (R : Fin 8192) (hR : R.val = 512 * (t.val / 4) + r.val) :
    outsAt1 V c t.val t.isLt (ix2 r k)
      = outsAt1 V c (t.val - 1) (Nat.lt_of_le_of_lt (Nat.sub_le _ _) t.isLt) (ix2 r k)
        + ∑ l ∈ Finset.range 2048, term (V c main_v28_0) (V c main_v32) R k (2048 * (t.val % 4) + l) := by
  refine (congrFun (acc_B V c t h0 h1) (ix2 r k)).trans ?_
  refine (Pay.k1_pay2_apply (rows (grid1.coords t) (iblk1 V c 1 t)) (iblk1 V c 0 t) _ r k).trans ?_
  exact congrArg (_ + ·) (contr_eq t (iblk1 V c 0 t) (iblk1 V c 1 t) (V c main_v28_0) (V c main_v32) r k R
      (fun q J hJ => iblk0_apply V c t r q R J hR hJ) (fun j => iblk1_apply V c t j k))

/-- After a last column tile, entry `(r, k)`: what the point before left plus the tile's stretch, times the row factor,
    rectified. -/
theorem acc_C_apply (c : Dev nD) (t : Fin cfg1.N) (h0 : ¬t.val % 4 = 0) (h1 : t.val % 4 = 3) (r : Fin 512) (k : Fin 128)
    (R : Fin 8192) (hR : R.val = 512 * (t.val / 4) + r.val) :
    outsAt1 V c t.val t.isLt (ix2 r k)
      = lrK ((outsAt1 V c (t.val - 1) (Nat.lt_of_le_of_lt (Nat.sub_le _ _) t.isLt) (ix2 r k)
          + ∑ l ∈ Finset.range 2048, term (V c main_v28_0) (V c main_v32) R k (2048 * (t.val % 4) + l))
        * (V c main_v29 : SN1.Idx → EReal) (ix2 R 0)) := by
  refine (congrFun (acc_C V c t h0 h1) (ix2 r k)).trans ?_
  refine (Pay.k1_pay3_apply _ (iblk1 V c 2 t) r k).trans ?_
  rw [Pay.k1_pay2_apply (rows (grid1.coords t) (iblk1 V c 1 t)) (iblk1 V c 0 t) _ r k, contr_eq t (iblk1 V c 0 t) (iblk1 V c 1 t) (V c main_v28_0) (V c main_v32) r k R
      (fun q J hJ => iblk0_apply V c t r q R J hR hJ) (fun j => iblk1_apply V c t j k),
    iblk2_apply V c t r R hR]

/-- A sum over four positions, written out in order. -/
theorem sum_range_four {M : Type*} [AddCommMonoid M] (f : ℕ → M) :
    ∑ s ∈ Finset.range 4, f s = ((f 0 + f 1) + f 2) + f 3 := by
  rw [Finset.sum_range_succ, Finset.sum_range_succ, Finset.sum_range_succ, Finset.sum_range_one]

/-- The four stretches of 2048 positions, added in order onto zero, are the whole contraction over 8192 positions:
    a finite sum in a commutative monoid, regrouped. -/
theorem sum_stretches (S : SNN.Idx → EReal) (H : SND.Idx → EReal) (R : Fin 8192) (k : Fin 128) :
    (((0 + ∑ l ∈ Finset.range 2048, term S H R k (2048 * 0 + l)) + ∑ l ∈ Finset.range 2048, term S H R k (2048 * 1 + l))
        + ∑ l ∈ Finset.range 2048, term S H R k (2048 * 2 + l)) + ∑ l ∈ Finset.range 2048, term S H R k (2048 * 3 + l)
      = ∑ j : Fin 8192, S (ix2 R j) * H (ix2 j k) := by
  have e : ∑ j : Fin 8192, S (ix2 R j) * H (ix2 j k) = ∑ j : Fin 8192, term S H R k j.val :=
    Finset.sum_congr rfl fun j _ => by unfold term; rw [dif_pos j.isLt]
  rw [e, Fin.sum_univ_eq_sum_range (term S H R k) 8192]
  refine Eq.trans ?_ (Cert.BlockSum.sum_range_blocks (term S H R k) 2048 4).symm
  rw [sum_range_four (fun s => ∑ l ∈ Finset.range 2048, term S H R k (2048 * s + l)), zero_add]

/-- What the accumulator block holds after the last column tile of a row block, entry `(r, k)`: the whole contraction
    of row `512 · (t / 4) + r` with column `k`, times the row factor, rectified. -/
theorem last_apply (c : Dev nD) (t : Fin cfg1.N) (h3 : t.val % 4 = 3) (r : Fin 512) (k : Fin 128)
    (R : Fin 8192) (hR : R.val = 512 * (t.val / 4) + r.val) :
    outsAt1 V c t.val t.isLt (ix2 r k)
      = propK (V c main_v28_0) (V c main_v32) (V c main_v29) (ix2 R k) := by
  have hN : t.val < 64 := lt_of_lt_of_eq t.isLt (show cfg1.N = 64 from N_1)
  have hlt1 : t.val - 1 < cfg1.N := Nat.lt_of_le_of_lt (Nat.sub_le _ _) t.isLt
  have hlt2 : t.val - 1 - 1 < cfg1.N := Nat.lt_of_le_of_lt (Nat.sub_le _ _) hlt1
  have hlt3 : t.val - 1 - 1 - 1 < cfg1.N := Nat.lt_of_le_of_lt (Nat.sub_le _ _) hlt2
  have e3 := acc_C_apply V c t (by omega) h3 r k R hR
  have e2 := acc_B_apply V c ⟨t.val - 1, hlt1⟩ (by dsimp only; omega) (by dsimp only; omega) r k R (by dsimp only; omega)
  have e1 := acc_B_apply V c ⟨t.val - 1 - 1, hlt2⟩ (by dsimp only; omega) (by dsimp only; omega) r k R (by dsimp only; omega)
  have e0 := acc_A_apply V c ⟨t.val - 1 - 1 - 1, hlt3⟩ (by dsimp only; omega) (by dsimp only; omega) r k R (by dsimp only; omega)
  dsimp only at e2 e1 e0
  rw [e3, e2, e1, e0, show t.val % 4 = 3 from h3, show (t.val - 1) % 4 = 2 from by omega,
    show (t.val - 1 - 1) % 4 = 1 from by omega, show (t.val - 1 - 1 - 1) % 4 = 0 from by omega, sum_stretches]
  rfl

end Cert.KernelIdeal.R1

end
-- ==== Proof.R1Arr.lean ====
/-
  The propagated array after the propagation step.

  The output's block at grid point t is rows 512 · (t / 4) … of the array (all 128 columns), and it is written back at
  the last column tile of each row block (t % 4 = 3), holding there, at entry (r, k), the leaky rectifier of the row
  factor times the contraction of row 512 · (t / 4) + r of the matrix with column k of the scaled features. The sixteen
  row blocks cover the array, so the array ends holding that function of the matrix, the scaled features and the row
  factors as the step found them.
-/
import proofs.«126049_j24678882083163_1_alg».proof.Proof.R1Acc
import proofs.«126049_j24678882083163_1_alg».proof.Proof.Pay
import proofs.«126049_j24678882083163_1_alg».proof.Proof.Spec
import proofs.«126049_j24678882083163_1_alg».proof.Proof.LibBlockSum
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Gcn

variable (V : (c : Dev nD) → (b : Ref sig .tc) → Buf (Elt Ideal) ((c : Thread nD τ).loc b))

/-- What a last column tile writes back is its block of the propagated array: the entry `(r, k)` of the block at point
    `t` sits at row `512 · (t / 4) + r`, column `k` of the array. -/
theorem flushed_eq (c : Dev nD) (t : Fin cfg1.N) (hf : (cfg1.win 3).flush t = true) :
    (dat1 (F := Ideal) V c).flushed 3 t
      = ((cfg1.win 3).blk t).view.read (Elt Ideal) (propK (V c main_v28_0) (V c main_v32) (V c main_v29)) := by
  have h3 : t.val % 4 = 3 := (flush1_3 t).mp hf
  have hi := idx_facts t
  show (cfg1.win 3).cut (grid1.coords t) ((dat1 V c).after 3 t) = _
  rw [after1_3]
  have key : ∀ j : S512x128.Idx, outsAt1 V c t.val t.isLt j
      = propK (V c main_v28_0) (V c main_v32) (V c main_v29) (((cfg1.win 3).blk t).view.emb j) := by
    intro j
    have hR : ((((cfg1.win 3).blk t).view.emb j : SND.Idx) 0).val = 512 * (t.val / 4) + (j 0).val := by
      show win1_3.index t 0 * 512 + 1 * (j 0).val = _
      rw [hi.2.2.2.2.2.2.1]; omega
    have hK : (((cfg1.win 3).blk t).view.emb j : SND.Idx) 1 = j 1 := Fin.ext (by
      show win1_3.index t 1 * 128 + 1 * (j 1).val = (j 1).val
      rw [hi.2.2.2.2.2.2.2.1]; omega)
    have e := last_apply V c t h3 (j 0) (j 1) _ hR
    have hE : (ix2 ((((cfg1.win 3).blk t).view.emb j : SND.Idx) 0) (j 1) : SND.Idx) = ((cfg1.win 3).blk t).view.emb j := by
      funext a
      match a with
      | ⟨0, _⟩ => rfl
      | ⟨1, _⟩ => exact hK.symm
    exact ((congrArg (outsAt1 V c t.val t.isLt) (eq_ix2 j)).trans e).trans
      (congrArg (propK (V c main_v28_0) (V c main_v32) (V c main_v29)) hE)
  funext j
  exact key j

/-- An index of the array is in point `t`'s block iff each coordinate is in the block's range on its axis. -/
theorem mem_blk (t : Fin cfg1.N) (i : S8192x128.Idx) :
    i ∈ ((cfg1.win 3).blk t).view.set
      ↔ ∀ a : Fin 2, win1_3.index t a * S512x128.size a ≤ (i a).val
          ∧ (i a).val < win1_3.index t a * S512x128.size a + S512x128.size a := by
  show i ∈ ((View.whole main_v33).slice (win1_3.rect t)).set ↔ _
  rw [View.set_slice_whole, Rect.mem_set_unit]
  exact Iff.rfl

/-- Row `R` of the array lies in the block written back at the last column tile of row block `R / 512`. -/
theorem cover (i : S8192x128.Idx) :
    ∃ t : Fin cfg1.N, (cfg1.win 3).flush t = true ∧ i ∈ ((cfg1.win 3).blk t).view.set := by
  have h0 : (i 0).val < 8192 := (i 0).isLt
  have h1 : (i 1).val < 128 := (i 1).isLt
  have hN : 4 * ((i 0).val / 512) + 3 < cfg1.N := by rw [show cfg1.N = 64 from N_1]; omega
  have hi := idx_facts ⟨4 * ((i 0).val / 512) + 3, hN⟩
  refine ⟨⟨4 * ((i 0).val / 512) + 3, hN⟩, (flush1_3 _).mpr (by dsimp only; omega), ?_⟩
  rw [mem_blk]
  intro a
  match a with
  | ⟨0, _⟩ =>
    show win1_3.index _ 0 * 512 ≤ (i 0).val ∧ (i 0).val < win1_3.index _ 0 * 512 + 512
    rw [hi.2.2.2.2.2.2.1]; dsimp only; omega
  | ⟨1, _⟩ =>
    show win1_3.index _ 1 * 128 ≤ (i 1).val ∧ (i 1).val < win1_3.index _ 1 * 128 + 128
    rw [hi.2.2.2.2.2.2.2.1]; omega

/-- The propagated array after the region: every row block is written back once, at its last column tile, so the
    array ends holding the propagation of the matrix, the scaled features and the row factors the region found. -/
theorem arr3 (c : Dev nD) :
    (dat1 (F := Ideal) V c).arrAt 3 cfg1.N = propK (V c main_v28_0) (V c main_v32) (V c main_v29) :=
  (dat1 (F := Ideal) V c).arrAt_eq_of_cover 3 (propK (V c main_v28_0) (V c main_v32) (V c main_v29))
    (flushed_eq V c) cover

end Cert.KernelIdeal.R1

end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.Shared.lean ====
/-
  The two programs compute the projected features and the second projection by the SAME host operations of the same
  arguments: batch statistics over the node axis (the mean; the biased variance through its guarded division), the
  normalisation with scale and shift, and one matrix product plus bias each. Read back as composed terms of the
  argument arrays the two programs' buffers hold one and the same function: there is a function `T` of the five
  arguments each projection reads such that both programs' buffers are `T` of their own arguments.
-/
import proofs.«126049_j24678882083163_1_alg».proof.Proof.Gen.KernelIdeal.Launch
import proofs.«126049_j24678882083163_1_alg».proof.Proof.RefRun
import proofs.«126049_j24678882083163_1_alg».proof.Proof.LibTypedRef
import Idealize.ShloMosaic.Lib.StableHlo.Run
import Idealize.ShloMosaic.Lib.Pipeline.Frame
import Idealize.ShloMosaic.PureOps.Ideal

set_option maxRecDepth 16384

noncomputable section

namespace Cert.Shared

open Idealize.ShloMosaic Idealize.ShloMosaic.TcCoe Idealize.ShloMosaic.StableHlo
open Idealize.SL Idealize.SL.Sem

set_option maxHeartbeats 4000000 in
/-- The projected features: one function of (H, γ, β, W_θ, b_θ) in both programs. -/
theorem hx_shared : ∃ T : FVec Ideal ⟨2, ![8192, 128]⟩ .f32 → FVec Ideal ⟨1, ![128]⟩ .f32 → FVec Ideal ⟨1, ![128]⟩ .f32
      → FVec Ideal ⟨2, ![128, 256]⟩ .f32 → FVec Ideal ⟨1, ![256]⟩ .f32 → FVec Ideal ⟨2, ![8192, 256]⟩ .bf16,
    (∀ Wk : Valuation Cert.KernelIdeal.τ Cert.KernelIdeal.sig (Elt Ideal),
      StableHlo.after (Cert.KernelIdeal.Gen.hostOps0_2 (F := Ideal)) (StableHlo.after (Cert.KernelIdeal.Gen.hostOps0_1 (F := Ideal))
        (StableHlo.after (Cert.KernelIdeal.Gen.hostOps0 (F := Ideal)) Wk)) (Proc.devRef .tc Cert.KernelIdeal.main_v27)
        = T (Wk (Proc.devRef .tc Cert.KernelIdeal.main_arg0)) (Wk (Proc.devRef .tc Cert.KernelIdeal.main_arg2))
            (Wk (Proc.devRef .tc Cert.KernelIdeal.main_arg3)) (Wk (Proc.devRef .tc Cert.KernelIdeal.main_arg4))
            (Wk (Proc.devRef .tc Cert.KernelIdeal.main_arg5)))
    ∧ (∀ Wr : Valuation Cert.ReferenceIdeal.τ Cert.ReferenceIdeal.sig (Elt Ideal),
      StableHlo.after (Cert.ReferenceIdeal.Hand.ops (F := Ideal)) Wr (Proc.devRef .tc Cert.ReferenceIdeal.main_v22)
        = T (Wr (Proc.devRef .tc Cert.ReferenceIdeal.main_arg0)) (Wr (Proc.devRef .tc Cert.ReferenceIdeal.main_arg2))
            (Wr (Proc.devRef .tc Cert.ReferenceIdeal.main_arg3)) (Wr (Proc.devRef .tc Cert.ReferenceIdeal.main_arg4))
            (Wr (Proc.devRef .tc Cert.ReferenceIdeal.main_arg5))) := by
  refine ⟨?_, fun Wk => ?_, fun Wr => ?_⟩
  rotate_left
  · simp only [Cert.KernelIdeal.Gen.hostOps0, Cert.KernelIdeal.Gen.hostOps0_1, Cert.KernelIdeal.Gen.hostOps0_2]
    after_results_simp
    simp only [Cert.LibTypedRef.ofBuf_toBuf, Cert.LibTypedRef.toBuf_ofBuf]
    generalize Wk (Proc.devRef .tc Cert.KernelIdeal.main_arg0) = x0
    generalize Wk (Proc.devRef .tc Cert.KernelIdeal.main_arg2) = x2
    generalize Wk (Proc.devRef .tc Cert.KernelIdeal.main_arg3) = x3
    generalize Wk (Proc.devRef .tc Cert.KernelIdeal.main_arg4) = x4
    generalize Wk (Proc.devRef .tc Cert.KernelIdeal.main_arg5) = x5
    exact rfl
  · show StableHlo.after (Cert.ReferenceIdeal.Hand.opsA ++ Cert.ReferenceIdeal.Hand.opsB) Wr _ = _
    rw [StableHlo.after_append]
    simp only [Cert.ReferenceIdeal.Hand.opsA, Cert.ReferenceIdeal.Hand.opsB]
    after_results_simp
    simp only [Cert.LibTypedRef.ofBuf_toBuf, Cert.LibTypedRef.toBuf_ofBuf]
    generalize Wr (Proc.devRef .tc Cert.ReferenceIdeal.main_arg0) = x0
    generalize Wr (Proc.devRef .tc Cert.ReferenceIdeal.main_arg2) = x2
    generalize Wr (Proc.devRef .tc Cert.ReferenceIdeal.main_arg3) = x3
    generalize Wr (Proc.devRef .tc Cert.ReferenceIdeal.main_arg4) = x4
    generalize Wr (Proc.devRef .tc Cert.ReferenceIdeal.main_arg5) = x5
    exact rfl

set_option maxHeartbeats 4000000 in
/-- The second projection: one function of (H, γ, β, W_out, b_out) in both programs. -/
theorem hw_shared : ∃ T : FVec Ideal ⟨2, ![8192, 128]⟩ .f32 → FVec Ideal ⟨1, ![128]⟩ .f32 → FVec Ideal ⟨1, ![128]⟩ .f32
      → FVec Ideal ⟨2, ![128, 128]⟩ .f32 → FVec Ideal ⟨1, ![128]⟩ .f32 → FVec Ideal ⟨2, ![8192, 128]⟩ .f32,
    (∀ Wk : Valuation Cert.KernelIdeal.τ Cert.KernelIdeal.sig (Elt Ideal),
      StableHlo.after (Cert.KernelIdeal.Gen.hostOps0_2 (F := Ideal)) (StableHlo.after (Cert.KernelIdeal.Gen.hostOps0_1 (F := Ideal))
        (StableHlo.after (Cert.KernelIdeal.Gen.hostOps0 (F := Ideal)) Wk)) (Proc.devRef .tc Cert.KernelIdeal.main_v26)
        = T (Wk (Proc.devRef .tc Cert.KernelIdeal.main_arg0)) (Wk (Proc.devRef .tc Cert.KernelIdeal.main_arg2))
            (Wk (Proc.devRef .tc Cert.KernelIdeal.main_arg3)) (Wk (Proc.devRef .tc Cert.KernelIdeal.main_arg6))
            (Wk (Proc.devRef .tc Cert.KernelIdeal.main_arg7)))
    ∧ (∀ Wr : Valuation Cert.ReferenceIdeal.τ Cert.ReferenceIdeal.sig (Elt Ideal),
      StableHlo.after (Cert.ReferenceIdeal.Hand.ops (F := Ideal)) Wr (Proc.devRef .tc Cert.ReferenceIdeal.main_v55)
        = T (Wr (Proc.devRef .tc Cert.ReferenceIdeal.main_arg0)) (Wr (Proc.devRef .tc Cert.ReferenceIdeal.main_arg2))
            (Wr (Proc.devRef .tc Cert.ReferenceIdeal.main_arg3)) (Wr (Proc.devRef .tc Cert.ReferenceIdeal.main_arg6))
            (Wr (Proc.devRef .tc Cert.ReferenceIdeal.main_arg7))) := by
  refine ⟨?_, fun Wk => ?_, fun Wr => ?_⟩
  rotate_left
  · simp only [Cert.KernelIdeal.Gen.hostOps0, Cert.KernelIdeal.Gen.hostOps0_1, Cert.KernelIdeal.Gen.hostOps0_2]
    after_results_simp
    simp only [Cert.LibTypedRef.ofBuf_toBuf, Cert.LibTypedRef.toBuf_ofBuf]
    generalize Wk (Proc.devRef .tc Cert.KernelIdeal.main_arg0) = x0
    generalize Wk (Proc.devRef .tc Cert.KernelIdeal.main_arg2) = x2
    generalize Wk (Proc.devRef .tc Cert.KernelIdeal.main_arg3) = x3
    generalize Wk (Proc.devRef .tc Cert.KernelIdeal.main_arg6) = x6
    generalize Wk (Proc.devRef .tc Cert.KernelIdeal.main_arg7) = x7
    exact rfl
  · show StableHlo.after (Cert.ReferenceIdeal.Hand.opsA ++ Cert.ReferenceIdeal.Hand.opsB) Wr _ = _
    rw [StableHlo.after_append]
    simp only [Cert.ReferenceIdeal.Hand.opsA, Cert.ReferenceIdeal.Hand.opsB]
    after_results_simp
    simp only [Cert.LibTypedRef.ofBuf_toBuf, Cert.LibTypedRef.toBuf_ofBuf]
    generalize Wr (Proc.devRef .tc Cert.ReferenceIdeal.main_arg0) = x0
    generalize Wr (Proc.devRef .tc Cert.ReferenceIdeal.main_arg2) = x2
    generalize Wr (Proc.devRef .tc Cert.ReferenceIdeal.main_arg3) = x3
    generalize Wr (Proc.devRef .tc Cert.ReferenceIdeal.main_arg6) = x6
    generalize Wr (Proc.devRef .tc Cert.ReferenceIdeal.main_arg7) = x7
    exact rfl

end Cert.Shared

end
-- ==== Proof.PreMask.lean ====
/-
  From the input precondition to the binary mask. The precondition's last conjunct says, entry by entry, that the
  ceiling of the adjacency entry times the word of 1e-5 equals zero or equals one; a conjunction of one-bit words that
  is 1 has every conjunct 1, an "all" over an array that is 1 has every element 1, an "or" of two bits that is 1 has
  one of them 1, and an ordered-equal comparison of two extended reals that is 1 says they are equal.
-/
import proofs.«126049_j24678882083163_1_alg».proof.Pre_finite_inputs
import proofs.«126049_j24678882083163_1_alg».proof.Proof.Gen.Pre_finite_inputs
import proofs.«126049_j24678882083163_1_alg».proof.Proof.Spec
import proofs.«126049_j24678882083163_1_alg».proof.Proof.LibLogisticForm
import Idealize.ShloMosaic.Lib.ReduceAll
import Idealize.ShloMosaic.Lib.ValueIdx
import Idealize.ShloMosaic.PureOps.Ideal.Laws

noncomputable section

namespace Cert.Gcn

open Idealize.ShloMosaic Idealize.ShloMosaic.ValueIdx

/-- An ordered-equal comparison of two extended reals that gives the bit 1 says they are equal. -/
theorem eq_of_cmp_oeq {x y : EReal} (h : Ideal.cmp .oeq x y = 1#1) : x = y := by
  by_cases hxy : x = y
  · exact hxy
  · exfalso
    unfold Ideal.cmp at h
    simp [hxy] at h

/-- The rank-0 index set has one element. -/
instance subsingleton_scalarIdx : Subsingleton Cert.Pre_finite_inputs.S_.Idx := ⟨fun a b => funext fun d => d.elim0⟩

open Cert.Pre_finite_inputs in
/-- Under the input precondition every mask entry is zero or one. -/
theorem maskBinary_of_pre [Cert.Pre_finite_inputs.Facts]
    (a0 : FVec Ideal Cert.Pre_finite_inputs.S8192x128 .f32) (a1 : FVec Ideal Cert.Pre_finite_inputs.S8192x8192 .f32)
    (a2 a3 : FVec Ideal Cert.Pre_finite_inputs.S128 .f32) (a4 : FVec Ideal Cert.Pre_finite_inputs.S128x256 .f32)
    (a5 : FVec Ideal Cert.Pre_finite_inputs.S256 .f32) (a6 : FVec Ideal Cert.Pre_finite_inputs.S128x128 .f32)
    (a7 : FVec Ideal Cert.Pre_finite_inputs.S128 .f32)
    (h : Cert.Pre_finite_inputs.fn (F := Ideal) a0 a1 a2 a3 a4 a5 a6 a7 = fun _ => 1#1) : Cert.Gcn.MaskBinary a1 := by
  have h0 := congrFun h ValueIdx.ix0
  dsimp only [fn, fn_part1, fn_part2, fn_part3] at h0
  have h1 := (IntOp.andi_eq_one.1 h0).2
  intro i j
  have h2 := Host.reduce_andi_all _ _ _ _ _ h1 (ix2 i j)
  rcases IntOp.ori_eq_one.1 h2 with h3 | h3
  · left
    have h4 := eq_of_cmp_oeq h3
    exact h4.trans Ideal.ofBits_zero_f32
  · right
    have h4 := eq_of_cmp_oeq h3
    exact h4.trans Cert.LogisticForm.ofBits_one_f32

end Cert.Gcn

end
-- ==== Proof.lean ====
/-
  The certificate of a graph convolution with a dynamic adjacency: batch-normalised node features H are projected
  to Hx (256 columns) and HW (128 columns); the affinity matrix is
  S = max(logistic(Hx·Hxᵀ), 1/10) ⊙ ceil(A·1e-5) + I, its inverse-square-root row sums d scale it on both sides, and the
  output is the leaky rectifier of (d ⊙ S ⊙ dᵀ)·HW. Both results — the output and S — are compared.

  The kernel program computes S and its row sums in one pallas_call over a 16 × 4 grid of 512 × 2048 tiles (the row sums
  accumulated over the four column tiles), takes d on the host, scales the rows of HW by d, and in a second
  pallas_call accumulates S·(d ⊙ HW) over the four column tiles, multiplies each row by d and rectifies. The reference
  forms d ⊙ S ⊙ dᵀ and contracts with HW. On the extended reals the two agree when every d is a non-negative REAL:
  (∑ⱼ xⱼ)·d = ∑ⱼ xⱼ·d then holds with no finiteness of the xⱼ, and the remaining regrouping is commutativity and
  associativity of the product. That is where the precondition's last conjunct is used: the mask ceil(A·1e-5) is
  binary, so every entry of S is a non-negative real, each diagonal entry is at least one, each row sum is a real ≥ 1
  and its inverse square root a real in (0, 1]. (Without it a row sum can be zero, d = ⊤, and the two groupings
  differ: ⊤·(1·⊤ − 1) = ⊤ against ⊤·⊤ + ⊥ = ⊥.) The two rectifiers — "val > 0" in the kernel, "x ≥ 0" in the
  reference — agree because at zero both give zero.

  The host operations that produce Hx and HW are the same in both programs and are never opened: each program's
  buffer is one common function of the arguments (`Cert.Shared`). The kernel's run is the generated frame run with
  the two results named (`run_values`); each pallas_call's arrays are read off its proof data for any entry contents
  (`R0.arr2`, `R0.arr3`, `R1.arr3`); the reference's run is its operation list (`Cert.ReferenceIdeal.Hand.run`)
  read against the entry-by-entry specification (`Cert.Gcn`).
-/
import proofs.«126049_j24678882083163_1_alg».proof.Defs
import proofs.«126049_j24678882083163_1_alg».proof.Proof.Gen.Kernel
import proofs.«126049_j24678882083163_1_alg».proof.Proof.Gen.Kernel.Frame
import proofs.«126049_j24678882083163_1_alg».proof.Proof.Gen.KernelIdeal
import proofs.«126049_j24678882083163_1_alg».proof.Proof.Gen.KernelIdeal.Frame
import proofs.«126049_j24678882083163_1_alg».proof.Proof.Gen.ReferenceIdeal
import proofs.«126049_j24678882083163_1_alg».proof.Proof.Gen.Pre_finite_inputs
import proofs.«126049_j24678882083163_1_alg».proof.Proof.RefRun
import proofs.«126049_j24678882083163_1_alg».proof.Proof.RefRead
import proofs.«126049_j24678882083163_1_alg».proof.Proof.KRun
import proofs.«126049_j24678882083163_1_alg».proof.Proof.KHost
import proofs.«126049_j24678882083163_1_alg».proof.Proof.R0Arr
import proofs.«126049_j24678882083163_1_alg».proof.Proof.R1Arr
import proofs.«126049_j24678882083163_1_alg».proof.Proof.Shared
import proofs.«126049_j24678882083163_1_alg».proof.Proof.Algebra
import proofs.«126049_j24678882083163_1_alg».proof.Proof.PreMask
import Idealize.ShloMosaic.Adequacy
import Idealize.ShloMosaic.Init

noncomputable section

namespace Cert.Proof

open Idealize.ShloMosaic Idealize.SL.Sem Idealize.ShloMosaic.TcCoe

/-- The word-level kernel program runs and leaves its arguments unchanged. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference is a straight line of host operations none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.arg0_kept _),
     (h c Cert.ReferenceIdeal.main_arg1).trans (Cert.ReferenceIdeal.Hand.arg1_kept _),
     (h c Cert.ReferenceIdeal.main_arg2).trans (Cert.ReferenceIdeal.Hand.arg2_kept _),
     (h c Cert.ReferenceIdeal.main_arg3).trans (Cert.ReferenceIdeal.Hand.arg3_kept _),
     (h c Cert.ReferenceIdeal.main_arg4).trans (Cert.ReferenceIdeal.Hand.arg4_kept _),
     (h c Cert.ReferenceIdeal.main_arg5).trans (Cert.ReferenceIdeal.Hand.arg5_kept _),
     (h c Cert.ReferenceIdeal.main_arg6).trans (Cert.ReferenceIdeal.Hand.arg6_kept _),
     (h c Cert.ReferenceIdeal.main_arg7).trans (Cert.ReferenceIdeal.Hand.arg7_kept _)⟩)
    (Cert.ReferenceIdeal.Hand.run (F := Ideal) m ρ)

/-- Both programs end with the output at `Gcn.outR` and the affinity array at `Gcn.SArr` of the common projected
    features, the adjacency argument and the common second projection. -/
theorem algebraic : Cert.algebraic_KernelIdeal_ReferenceIdeal := by
  intro m ρ m' ρ' hpre hagree
  obtain ⟨Tx, hxk, hxr⟩ := Cert.Shared.hx_shared
  obtain ⟨Tw, hwk, hwr⟩ := Cert.Shared.hw_shared
  -- the precondition's last conjunct: the mask is binary
  have hmask : ∀ c : Dev Cert.KernelIdeal.nD,
      Cert.Gcn.MaskBinary (m ((c.tc : Thread Cert.KernelIdeal.nD Cert.KernelIdeal.τ).loc Cert.KernelIdeal.main_arg1)) :=
    fun c => Cert.Gcn.maskBinary_of_pre _ _ _ _ _ _ _ _ (hpre c)
  -- the reference's projected features and second projection are the kernel program's
  have hx_agree : ∀ c : Dev Cert.KernelIdeal.nD,
      StableHlo.after (Cert.ReferenceIdeal.Hand.ops (F := Ideal)) (StableHlo.launchContents m' c)
          (Proc.devRef .tc Cert.ReferenceIdeal.main_v22)
        = Cert.KernelIdeal.Hand.hxK m ρ c := fun c => by
    rw [hxr]
    refine Eq.trans ?_ (hxk (Cert.KernelIdeal.Gen.W0 m ρ c)).symm
    have h := hagree c
    exact congr (congr (congr (congr (congrArg Tx h.1) h.2.2.1) h.2.2.2.1) h.2.2.2.2.1) h.2.2.2.2.2.1
  have hw_agree : ∀ c : Dev Cert.KernelIdeal.nD,
      StableHlo.after (Cert.ReferenceIdeal.Hand.ops (F := Ideal)) (StableHlo.launchContents m' c)
          (Proc.devRef .tc Cert.ReferenceIdeal.main_v55)
        = Cert.KernelIdeal.Hand.hwK m ρ c := fun c => by
    rw [hwr]
    refine Eq.trans ?_ (hwk (Cert.KernelIdeal.Gen.W0 m ρ c)).symm
    have h := hagree c
    exact congr (congr (congr (congr (congrArg Tw h.1) h.2.2.1) h.2.2.2.1) h.2.2.2.2.2.2.1) h.2.2.2.2.2.2.2
  refine ⟨fun c => Cert.Gcn.outR (Cert.KernelIdeal.Hand.hxK m ρ c)
      (m ((c.tc : Thread Cert.KernelIdeal.nD Cert.KernelIdeal.τ).loc Cert.KernelIdeal.main_arg1)) (Cert.KernelIdeal.Hand.hwK m ρ c),
    fun c => Cert.Gcn.SArr (Cert.KernelIdeal.Hand.hxK m ρ c)
      (m ((c.tc : Thread Cert.KernelIdeal.nD Cert.KernelIdeal.τ).loc Cert.KernelIdeal.main_arg1)), ?_, ?_⟩
  · -- the kernel program: one propagation step from S, d ⊙ HW and d, regrouped under the binary mask
    refine (θ_run Cert.KernelIdeal.defs _ _).mono (fun r h c => ?_) (Cert.KernelIdeal.Hand.run_values (F := Ideal) m ρ)
    obtain ⟨h1, h2, hargs⟩ := h c
    refine ⟨?_, ?_, hargs⟩
    · rw [h1, Cert.KernelIdeal.Hand.W6_out m ρ Cert.KernelIdeal.R0.arr2 Cert.KernelIdeal.R0.arr3 Cert.KernelIdeal.R1.arr3 c,
        Cert.Gcn.propK_eq_outK, Cert.Gcn.out_eq _ _ (hmask c)]
    · rw [h2, Cert.KernelIdeal.Hand.W6_S m ρ Cert.KernelIdeal.R0.arr2 c]
  · -- the reference: its two results read entry by entry
    refine (θ_run Cert.ReferenceIdeal.defs _ _).mono (fun r h c => ?_) (Cert.ReferenceIdeal.Hand.run (F := Ideal) m' ρ')
    refine ⟨?_, ?_,
      (h c Cert.ReferenceIdeal.main_arg0).trans (Cert.ReferenceIdeal.Hand.arg0_kept _),
      (h c Cert.ReferenceIdeal.main_arg1).trans (Cert.ReferenceIdeal.Hand.arg1_kept _),
      (h c Cert.ReferenceIdeal.main_arg2).trans (Cert.ReferenceIdeal.Hand.arg2_kept _),
      (h c Cert.ReferenceIdeal.main_arg3).trans (Cert.ReferenceIdeal.Hand.arg3_kept _),
      (h c Cert.ReferenceIdeal.main_arg4).trans (Cert.ReferenceIdeal.Hand.arg4_kept _),
      (h c Cert.ReferenceIdeal.main_arg5).trans (Cert.ReferenceIdeal.Hand.arg5_kept _),
      (h c Cert.ReferenceIdeal.main_arg6).trans (Cert.ReferenceIdeal.Hand.arg6_kept _),
      (h c Cert.ReferenceIdeal.main_arg7).trans (Cert.ReferenceIdeal.Hand.arg7_kept _)⟩
    · rw [h c Cert.ReferenceIdeal.main_v57, Cert.ReferenceIdeal.Hand.ref_out, hx_agree c, hw_agree c]
      exact congrArg (fun a => Cert.Gcn.outR _ a _) (hagree c).2.1
    · rw [h c Cert.ReferenceIdeal.main_v43, Cert.ReferenceIdeal.Hand.ref_S, hx_agree c]
      exact congrArg (fun a => Cert.Gcn.SArr _ a) (hagree c).2.1

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
